-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S2000x128 : Shape := ⟨2, ![2000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S6400x128 : Shape := ⟨2, ![6400, 128]⟩
abbrev S50000 : Shape := ⟨1, ![50000]⟩
abbrev S50000x1 : Shape := ⟨2, ![50000, 1]⟩
abbrev S2000x1 : Shape := ⟨2, ![2000, 1]⟩

abbrev nBuf : Space → Nat
  | .hbm => 66
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S50000x1, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S6400x128, .f32⟩
  | .local _ .vmem, ⟨23, _⟩ => ⟨S6400x128, .f32⟩
  | .local _ .vmem, ⟨24, _⟩ => ⟨S6400x128, .f32⟩
  | .local _ .vmem, ⟨25, _⟩ => ⟨S6400x128, .f32⟩
  | .local _ .vmem, ⟨26, _⟩ => ⟨S6400x128, .f32⟩
  | .local _ .vmem, ⟨27, _⟩ => ⟨S6400x128, .f32⟩
  | .local _ .vmem, ⟨28, _⟩ => ⟨S6400x128, .f32⟩
  | .local _ .vmem, ⟨29, _⟩ => ⟨S6400x128, .f32⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem4_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .f32 = 32 ∨ (Rect.block (s := S50000x128) S2000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S50000x128.size a
  hwx0_13 : ∀ i : grid0.Coords, EltTy.bits .f32 = 32 ∨ (Rect.block (s := S50000x128) S2000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S50000x128.size a
  hwx0_14 : ∀ i : grid0.Coords, EltTy.bits .f32 = 32 ∨ (Rect.block (s := S50000x128) S2000x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S50000x128.size a
  hwx0_15 : ∀ i : grid0.Coords, EltTy.bits .f32 = 32 ∨ (Rect.block (s := S50000x128) S2000x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .f32 = 32 ∨ (Rect.block (s := S800000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S800000x128.size a
  hwx1_1 : ∀ i : grid1.Coords, EltTy.bits .f32 = 32 ∨ (Rect.block (s := S800000x128) S6400x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S800000x128.size a
  hwx1_2 : ∀ i : grid1.Coords, EltTy.bits .f32 = 32 ∨ (Rect.block (s := S800000x128) S6400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6400x128.size a ≤ S800000x128.size a
  hwx1_3 : ∀ i : grid1.Coords, EltTy.bits .f32 = 32 ∨ (Rect.block (s := S800000x128) S6400x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9_0) S2000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_1) S2000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9_2) S2000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9_3) S2000x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v9_4) S2000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v16) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S6400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S6400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9_0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9_4) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S128x128, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S128x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S128x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S800000x128, .f32⟩
  | .hbm, ⟨62, _⟩ => ⟨S800000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S800000, .f32⟩
  | .hbm, ⟨80, _⟩ => ⟨S_, .f32⟩
  | .hbm, ⟨81, _⟩ => ⟨S50000, .f32⟩
  | .hbm, ⟨82, _⟩ => ⟨S800000x1, .i32⟩
  | .hbm, ⟨83, _⟩ => ⟨S50000, .f32⟩
  | .hbm, ⟨84, _⟩ => ⟨S_, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S128x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_1 : Ref sig .tc := ⟨.hbm, 45, rfl⟩
abbrev main_v31 : Ref sig .tc := ⟨.hbm, 46, rfl⟩
abbrev main_v32 : Ref sig .tc := ⟨.hbm, 47, rfl⟩
abbrev main_c_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_c_4 : Ref sig .tc := ⟨.hbm, 63, rfl⟩
abbrev main_v45 : Ref sig .tc := ⟨.hbm, 64, rfl⟩
abbrev main_v46 : Ref sig .tc := ⟨.hbm, 65, rfl⟩
abbrev main_c_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_call0_v0 : Ref sig .tc := ⟨.hbm, 85, rfl⟩
abbrev main_call0_v1 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KernelRun.lean ====
/-
  The kernel program's run with its result named.

  The program is six segments: a stretch of whole-array operations, the pipeline of the five dense layers,
  a second stretch (the three gathers), the pipeline of the edge gate, a third stretch (the two
  scatter-adds), and the pipeline of the combination. Every weakly fair execution goes through them in
  order; the contents of the unscoped buffers at each boundary are a fold from the launch memory, and after
  the last segment every unscoped buffer holds the last fold's contents. Read at the result buffer this is the
  program's value; read at an argument it is the launch memory. The statement below is the segment theorem
  with the final contents read at the result buffer as well as at the arguments.
-/
import proofs.«113870_j86285892976710_1_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and every argument as launched. -/
theorem run_result : θ_run defs (onTc (τ := τ) (main (F := F))) ⟨m, fun _ => 0, ρ⟩ (fun r => ∀ c : Dev nD,
      r.2.mem ((c.tc : Thread nD τ).loc main_v40) = W6 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v40 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Layers

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibRowsProduct.lean ====
/-
  The product of two matrices of extended reals as ONE function of its entries, and the ways a program
  spells it.

  `prod M K N x w` at the entry (r, c) is the sum over k < K of x (r, k) * w (k, c). On the extended reals this sum
  is a sum in a commutative monoid, so it does not depend on an order or a grouping, and nothing needs to be finite.

  * the host's `dot_general` with the plain dimension numbers is `prod`;
  * a `tpu.matmul` of the two operands cast to bf16, into the zero accumulator, is `prod` of the operands
    themselves (at the exact instance a change of float format is the identity);
  * ROW LOCALITY: an entry of the product reads one row of the left operand and one column of the right one, so
    the product of a block of rows with the whole right operand, at an entry of the block, is the product of the
    whole matrices at the entry the block's position sends it to. This is what lets a kernel tile the rows of the
    left operand over a grid and still compute the one product.
  * a row vector [1, N] added to every row (`addRow`), as the kernel spells it (a broadcast along the rows and a sum);
  * the hyperbolic tangent applied entry by entry is the same function whether the kernel's or the host's
    operation spells it.
-/
import Idealize.ShloMosaic.PureOps.Ideal.Laws
import Idealize.ShloMosaic.Lib.ValueIdx
import Idealize.ShloMosaic.Lib.Pipeline.Value
import proofs.«113870_j86285892976710_1_alg».proof.Proof.LibPlainDot

noncomputable section

namespace RowsProduct

open Idealize.ShloMosaic Idealize.ShloMosaic.ValueIdx

variable (M K N : Nat)

/-- The matrix product, entry by entry: at (r, c) the sum over k of x (r, k) * w (k, c). -/
def prod (x : FVec Ideal ⟨2, ![M, K]⟩ .f32) (w : FVec Ideal ⟨2, ![K, N]⟩ .f32) : FVec Ideal ⟨2, ![M, N]⟩ .f32 :=
  fun j => ∑ k : Fin K, (x (ix2 (j 0) k) : EReal) * w (ix2 k (j 1))

/-- The host's `dot_general` with plain dimension numbers is the matrix product. -/
theorem hostDot_eq (x : FVec Ideal ⟨2, ![M, K]⟩ .f32) (w : FVec Ideal ⟨2, ![K, N]⟩ .f32) :
    Host.dotGeneral (DotDims.plain M K N) none x w = prod M K N x w :=
  funext fun j => PlainDot.dotGeneral_apply M K N none .single x w j

/-- A `tpu.matmul` of the operands cast to bf16, into the zero accumulator, is the matrix product of the operands. -/
theorem matmulBf16_eq (x : FVec Ideal ⟨2, ![M, K]⟩ .f32) (w : FVec Ideal ⟨2, ![K, N]⟩ .f32)
    (h : FTy.bf16.bits < FTy.f32.bits) :
    matmul (DotDims.plain M K N) none (truncf .bf16 x h) (truncf .bf16 w h) (constant ⟨2, ![M, N]⟩ .f32 0x00000000#32)
      = prod M K N x w :=
  funext fun j => PlainDot.matmul_zero_apply M K N none (truncf .bf16 x h) (truncf .bf16 w h) j

/-- ROW LOCALITY. If row `j 0` of a block `xb` is row `i 0` of `X`, and column `j 1` of `wb` is column `i 1` of `W`,
    the product of the blocks at `j` is the product of the matrices at `i`. -/
theorem prod_rows {Mb Nb : Nat} (X : FVec Ideal ⟨2, ![M, K]⟩ .f32) (W : FVec Ideal ⟨2, ![K, N]⟩ .f32)
    (xb : FVec Ideal ⟨2, ![Mb, K]⟩ .f32) (wb : FVec Ideal ⟨2, ![K, Nb]⟩ .f32)
    (j : (⟨2, ![Mb, Nb]⟩ : Shape).Idx) (i : (⟨2, ![M, N]⟩ : Shape).Idx)
    (hx : ∀ k : Fin K, xb (ix2 (j 0) k) = X (ix2 (i 0) k)) (hw : ∀ k : Fin K, wb (ix2 k (j 1)) = W (ix2 k (i 1))) :
    prod Mb K Nb xb wb j = prod M K N X W i :=
  Finset.sum_congr rfl fun k _ => by rw [hx k, hw k]

/-- A row vector [1, N] added to every row of a matrix [M, N]. -/
def addRow (a : FVec Ideal ⟨2, ![M, N]⟩ .f32) (b : FVec Ideal ⟨2, ![1, N]⟩ .f32) : FVec Ideal ⟨2, ![M, N]⟩ .f32 :=
  fun i => (a i : EReal) + b (ix2 (0 : Fin 1) (i 1))

/-- The kernel's spelling of adding a row vector: the row broadcast along the rows, then an entrywise sum. -/
theorem addf_broadcastTo_eq (a : FVec Ideal ⟨2, ![M, N]⟩ .f32) (b : FVec Ideal ⟨2, ![1, N]⟩ .f32) (hN : N ≠ 1)
    (h : (⟨2, ![1, N]⟩ : Shape).Broadcasts ⟨2, ![M, N]⟩) :
    addf a (broadcastTo ⟨2, ![M, N]⟩ b h) = addRow M N a b := by
  funext i
  show (a i : EReal) + broadcastTo ⟨2, ![M, N]⟩ b h i = (a i : EReal) + b (ix2 (0 : Fin 1) (i 1))
  congr 1
  refine broadcastTo_apply b h i (ix2 (0 : Fin 1) (i 1)) fun a => ?_
  match a with
  | ⟨0, _⟩ => show (0 : Nat) = if (1 : Nat) = 1 then 0 else _; rw [if_pos rfl]
  | ⟨1, _⟩ => show (i 1).val = if N = 1 then 0 else (i 1).val; rw [if_neg hN]

/-- Row locality of `addRow`: an entry of a block of rows plus its bias entry is the whole matrix's entry plus the
    same bias entry, when the two summands agree. -/
theorem addRow_rows {Mb : Nat} (A : FVec Ideal ⟨2, ![M, N]⟩ .f32) (B : FVec Ideal ⟨2, ![1, N]⟩ .f32)
    (ab : FVec Ideal ⟨2, ![Mb, N]⟩ .f32) (bb : FVec Ideal ⟨2, ![1, N]⟩ .f32)
    (j : (⟨2, ![Mb, N]⟩ : Shape).Idx) (i : (⟨2, ![M, N]⟩ : Shape).Idx)
    (ha : ab j = A i) (hb : bb (ix2 (0 : Fin 1) (j 1)) = B (ix2 (0 : Fin 1) (i 1))) :
    addRow Mb N ab bb j = addRow M N A B i := by
  show (ab j : EReal) + bb (ix2 (0 : Fin 1) (j 1)) = (A i : EReal) + B (ix2 (0 : Fin 1) (i 1))
  rw [ha, hb]

/-- The hyperbolic tangent entry by entry: the kernel's operation and the host's are one function. -/
theorem tanh_eq_hostTanh {s : Shape} (x : FVec Ideal s .f32) : tanh x = Host.tanh x := rfl

end RowsProduct

end
-- ==== Proof.LibBiasRow.lean ====
/-
  A bias vector added to every row of a matrix, in the two spellings a program uses.

  A vector `bc` of N entries added to every row of an [M, N] matrix `a`:
  * reshaped to a row [1, N] and added with `RowsProduct.addRow` (a kernel that takes the bias as a [1, N] operand);
  * broadcast [N] → [1, N] → [M, N] and added entrywise (the host's `a + bc`).
  Both are `a (r, c) + bc c` at every entry, on any values.
-/
import proofs.«113870_j86285892976710_1_alg».proof.Proof.LibRowsProduct
import Idealize.ShloMosaic.Lib.Pipeline.Value

noncomputable section

namespace RowsProduct

open Idealize.ShloMosaic Idealize.ShloMosaic.ValueIdx

/-- The reshaped row added by `addRow` is the host's two broadcasts and entrywise sum. -/
theorem addRow_reshape_eq (M N : Nat) (a : FVec Ideal ⟨2, ![M, N]⟩ .f32) (bc : FVec Ideal ⟨1, ![N]⟩ .f32) (hN : N ≠ 1)
    (hs : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addRow M N a (shapeCast ⟨2, ![1, N]⟩ bc hs)
      = addf a (broadcastInDim ⟨2, ![M, N]⟩ ![0, 1] h2 (broadcastInDim ⟨2, ![1, N]⟩ ![1] h1 bc)) := by
  funext i
  show (a i : EReal) + shapeCast ⟨2, ![1, N]⟩ bc hs (ix2 (0 : Fin 1) (i 1))
    = (a i : EReal) + broadcastInDim ⟨2, ![M, N]⟩ ![0, 1] h2 (broadcastInDim ⟨2, ![1, N]⟩ ![1] h1 bc) i
  congr 1
  refine (shapeCast_addUnit_apply ![N] bc hs (ix2 (0 : Fin 1) (i 1))).trans ?_
  refine Eq.symm ((broadcastInDim_apply ![0, 1] h2 _ i (ix2 (0 : Fin 1) (i 1)) ?_).trans
    ((broadcastInDim_apply ![1] h1 bc (ix2 (0 : Fin 1) (i 1)) (ix1 (i 1)) ?_).trans ?_))
  · intro a
    match a with
    | ⟨0, _⟩ => show (0 : Nat) = if (1 : Nat) = 1 then 0 else _; rw [if_pos rfl]
    | ⟨1, _⟩ => show (i 1).val = if N = 1 then 0 else (i 1).val; rw [if_neg hN]
  · intro a
    match a with
    | ⟨0, _⟩ => show (i 1).val = if N = 1 then 0 else (i 1).val; rw [if_neg hN]
  · congr 1
    funext a
    match a with
    | ⟨0, _⟩ => rfl

end RowsProduct

end
-- ==== Proof.GatedLayers.lean ====
/-
  The three entrywise layers of a residual gated graph convolution, on the extended reals.

  * `dense`: a matrix of rows times a square matrix of weights plus a bias added to every row,
        dense X W b (r, c) = (sum over k of X (r, k) * W (k, c)) + b c.
    An entry reads one row of X only, so a block of rows sent through the layer is the block of the
    layer's result at the same position (`dense_rows`).
  * `gate`: sigma (A + B) * C entry by entry, sigma x = 1 / (1 + exp (-x)).
  * `combine`: (S + H) / max (n, 1) + R, the count n read from a one-column matrix at the entry's row.

  Each layer is stated once as a function of the entries and then identified with the way a tile of a
  kernel and a whole-array program spell it. Nothing is assumed finite: every identity below is a
  re-indexing or the unfolding of a definition.
-/
import proofs.«113870_j86285892976710_1_alg».proof.Proof.LibBiasRow
import Idealize.ShloMosaic.Lib.IdealHost
import Idealize.ShloMosaic.Lib.ValueLayout

noncomputable section

namespace GatedConv

open Idealize.ShloMosaic Idealize.ShloMosaic.ValueIdx

/-! ## The dense layer -/

/-- Rows times weights plus a bias on every row, entry by entry. -/
def dense (M : Nat) (X : FVec Ideal ⟨2, ![M, 128]⟩ .f32) (W : FVec Ideal ⟨2, ![128, 128]⟩ .f32)
    (b : FVec Ideal ⟨1, ![128]⟩ .f32) : FVec Ideal ⟨2, ![M, 128]⟩ .f32 :=
  fun i => (∑ k : Fin 128, (X (ix2 (i 0) k) : EReal) * W (ix2 k (i 1))) + b (ix1 (i 1))

/-- The layer as the matrix product with the bias, reshaped to one row, added to every row. -/
theorem dense_eq_addRow (M : Nat) (X : FVec Ideal ⟨2, ![M, 128]⟩ .f32) (W : FVec Ideal ⟨2, ![128, 128]⟩ .f32)
    (b : FVec Ideal ⟨1, ![128]⟩ .f32) (hs : (⟨1, ![128]⟩ : Shape).ShapeCasts ⟨2, ![1, 128]⟩) :
    RowsProduct.addRow M 128 (RowsProduct.prod M 128 128 X W) (shapeCast ⟨2, ![1, 128]⟩ b hs) = dense M X W b := by
  funext i
  show (RowsProduct.prod M 128 128 X W i : EReal) + shapeCast ⟨2, ![1, 128]⟩ b hs (ix2 (0 : Fin 1) (i 1))
    = (∑ k : Fin 128, (X (ix2 (i 0) k) : EReal) * W (ix2 k (i 1))) + b (ix1 (i 1))
  congr 1
  refine (shapeCast_addUnit_apply ![128] b hs (ix2 (0 : Fin 1) (i 1))).trans ?_
  congr 1
  funext a
  match a with
  | ⟨0, _⟩ => rfl

/-- The whole-array spelling: a `dot_general` over the plain dimension numbers, the bias broadcast to
    a row and then to every row, an entrywise sum. -/
theorem dense_host (M : Nat) (X : FVec Ideal ⟨2, ![M, 128]⟩ .f32) (W : FVec Ideal ⟨2, ![128, 128]⟩ .f32)
    (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![M, 128]⟩ ![0, 1])
    (hs : (⟨1, ![128]⟩ : Shape).ShapeCasts ⟨2, ![1, 128]⟩) :
    addf (Host.dotGeneral (DotDims.plain M 128 128) none X W)
        (broadcastInDim ⟨2, ![M, 128]⟩ ![0, 1] h2 (broadcastInDim ⟨2, ![1, 128]⟩ ![1] h1 b))
      = dense M X W b := by
  rw [RowsProduct.hostDot_eq, ← RowsProduct.addRow_reshape_eq M 128 _ b (by decide) hs h1 h2, dense_eq_addRow]

/-- A tile's spelling: both operands cast to bf16 and multiplied into the zero accumulator, the bias
    reshaped to a row, broadcast along the rows and added. -/
theorem dense_tile (M : Nat) (x : FVec Ideal ⟨2, ![M, 128]⟩ .f32) (w : FVec Ideal ⟨2, ![128, 128]⟩ .f32)
    (b : FVec Ideal ⟨1, ![128]⟩ .f32) (hb : FTy.bf16.bits < FTy.f32.bits)
    (hw : (⟨2, ![128, 128]⟩ : Shape).ShapeCasts ⟨2, ![128, 128]⟩)
    (hs : (⟨1, ![128]⟩ : Shape).ShapeCasts ⟨2, ![1, 128]⟩)
    (hbc : (⟨2, ![1, 128]⟩ : Shape).Broadcasts ⟨2, ![M, 128]⟩) :
    addf (matmul (DotDims.plain M 128 128) none (truncf .bf16 x hb) (truncf .bf16 (shapeCast ⟨2, ![128, 128]⟩ w hw) hb)
          (constant ⟨2, ![M, 128]⟩ .f32 0x00000000#32))
        (broadcastTo ⟨2, ![M, 128]⟩ (shapeCast ⟨2, ![1, 128]⟩ b hs) hbc)
      = dense M x w b := by
  rw [shapeCast_self, RowsProduct.matmulBf16_eq, RowsProduct.addf_broadcastTo_eq M 128 _ _ (by decide), dense_eq_addRow]

/-- ROW LOCALITY: an entry of the layer reads one row of the left operand. -/
theorem dense_rows {Mb M : Nat} (X : FVec Ideal ⟨2, ![M, 128]⟩ .f32) (x : FVec Ideal ⟨2, ![Mb, 128]⟩ .f32)
    (W : FVec Ideal ⟨2, ![128, 128]⟩ .f32) (b : FVec Ideal ⟨1, ![128]⟩ .f32)
    (j : (⟨2, ![Mb, 128]⟩ : Shape).Idx) (i : (⟨2, ![M, 128]⟩ : Shape).Idx)
    (hx : ∀ k : Fin 128, x (ix2 (j 0) k) = X (ix2 (i 0) k)) (hc : j 1 = i 1) :
    dense Mb x W b j = dense M X W b i := by
  show (∑ k : Fin 128, (x (ix2 (j 0) k) : EReal) * W (ix2 k (j 1))) + b (ix1 (j 1))
    = (∑ k : Fin 128, (X (ix2 (i 0) k) : EReal) * W (ix2 k (i 1))) + b (ix1 (i 1))
  rw [hc]
  simp only [hx]

/-- An entry of the layer reads one row of the left operand, one column of the weights and one entry of the
    bias: two layers agree at two entries where those agree. -/
theorem dense_entry {Mb M : Nat} (X : FVec Ideal ⟨2, ![M, 128]⟩ .f32) (W : FVec Ideal ⟨2, ![128, 128]⟩ .f32)
    (B : FVec Ideal ⟨1, ![128]⟩ .f32) (x : FVec Ideal ⟨2, ![Mb, 128]⟩ .f32) (w : FVec Ideal ⟨2, ![128, 128]⟩ .f32)
    (b : FVec Ideal ⟨1, ![128]⟩ .f32) (j : (⟨2, ![Mb, 128]⟩ : Shape).Idx) (i : (⟨2, ![M, 128]⟩ : Shape).Idx)
    (hx : ∀ k : Fin 128, x (ix2 (j 0) k) = X (ix2 (i 0) k))
    (hw : ∀ k : Fin 128, w (ix2 k (j 1)) = W (ix2 k (i 1)))
    (hb : b (ix1 (j 1)) = B (ix1 (i 1))) :
    dense Mb x w b j = dense M X W B i := by
  show (∑ k : Fin 128, (x (ix2 (j 0) k) : EReal) * w (ix2 k (j 1))) + b (ix1 (j 1))
    = (∑ k : Fin 128, (X (ix2 (i 0) k) : EReal) * W (ix2 k (i 1))) + B (ix1 (i 1))
  rw [hb]
  congr 1
  exact Finset.sum_congr rfl fun k _ => by rw [hx k, hw k]

/-! ## The gate -/

/-- sigma (A + B) * C, entry by entry. -/
def gate {s : Shape} (A B C : FVec Ideal s .f32) : FVec Ideal s .f32 :=
  fun e => Ideal.logistic ((A e : EReal) + B e) * C e

/-- A tile's spelling: the one logistic operation of the sum, times the third operand. -/
theorem gate_tile {s : Shape} (a b c : FVec Ideal s .f32) (h : s.ShapeCasts s) :
    mulf (logistic (addf (shapeCast s a h) (shapeCast s b h))) (shapeCast s c h) = gate a b c := by
  simp only [shapeCast_self]
  rfl

/-- The whole-array spelling: the sum negated, exponentiated, one added, one divided by that, times
    the third operand; `o` is the array of ones. -/
theorem gate_host {s : Shape} (A B C o : FVec Ideal s .f32) (ho : ∀ e, (o e : EReal) = 1) :
    mulf (Host.divf o (addf o (Host.exp (Host.negf (addf A B))))) C = gate A B C := by
  funext e
  show Ideal.div (o e : EReal) ((o e : EReal) + Ideal.exp (-((A e : EReal) + B e))) * C e
    = Ideal.logistic ((A e : EReal) + B e) * C e
  rw [ho e]
  rfl

/-- The gate is entrywise: a tile's entry is the whole arrays' entry where the three operands agree. -/
theorem gate_entry {s S : Shape} (A B C : FVec Ideal S .f32) (a b c : FVec Ideal s .f32) (j : s.Idx) (i : S.Idx)
    (ha : a j = A i) (hb : b j = B i) (hc : c j = C i) : gate a b c j = gate A B C i := by
  show Ideal.logistic ((a j : EReal) + b j) * c j = Ideal.logistic ((A i : EReal) + B i) * C i
  rw [ha, hb, hc]

/-! ## The combination -/

/-- (S + H) / max (n, 1) + R, the count read at the entry's row of a one-column matrix. -/
def combine (M : Nat) (S : FVec Ideal ⟨2, ![M, 128]⟩ .f32) (n : FVec Ideal ⟨2, ![M, 1]⟩ .f32)
    (H R : FVec Ideal ⟨2, ![M, 128]⟩ .f32) : FVec Ideal ⟨2, ![M, 128]⟩ .f32 :=
  fun i => Ideal.div ((S i : EReal) + H i) (max (n (ix2 (i 0) (0 : Fin 1)) : EReal) 1) + R i

/-- A tile's spelling: the count's maximum with one, broadcast along the columns, divides the sum; the residual is
    added. -/
theorem combine_tile (M : Nat) (hM : M ≠ 1) (s h r : FVec Ideal ⟨2, ![M, 128]⟩ .f32) (n : FVec Ideal ⟨2, ![M, 1]⟩ .f32)
    (hss : (⟨2, ![M, 128]⟩ : Shape).ShapeCasts ⟨2, ![M, 128]⟩) (hsn : (⟨2, ![M, 1]⟩ : Shape).ShapeCasts ⟨2, ![M, 1]⟩)
    (hbc : (⟨2, ![M, 1]⟩ : Shape).Broadcasts ⟨2, ![M, 128]⟩) :
    addf (divf (addf (shapeCast ⟨2, ![M, 128]⟩ s hss) (shapeCast ⟨2, ![M, 128]⟩ h hss))
          (broadcastTo ⟨2, ![M, 128]⟩
            (shapeCast ⟨2, ![M, 1]⟩ (maximumf (shapeCast ⟨2, ![M, 1]⟩ n hsn)
              (broadcast ⟨2, ![M, 1]⟩ (Scalar.ofBits (F := Ideal) .f32 0x3F800000#32))) hsn) hbc))
        (shapeCast ⟨2, ![M, 128]⟩ r hss)
      = combine M s n h r := by
  simp only [shapeCast_self]
  funext i
  show Ideal.div ((s i : EReal) + h i)
      (broadcastTo ⟨2, ![M, 128]⟩ (maximumf n (broadcast ⟨2, ![M, 1]⟩ (Scalar.ofBits (F := Ideal) .f32 0x3F800000#32))) hbc i) + r i
    = Ideal.div ((s i : EReal) + h i) (max (n (ix2 (i 0) (0 : Fin 1)) : EReal) 1) + r i
  rw [broadcastTo_apply _ hbc i (ix2 (i 0) (0 : Fin 1)) (fun a => by
    match a with
    | ⟨0, _⟩ => show (i 0).val = if M = 1 then 0 else (i 0).val; rw [if_neg hM]
    | ⟨1, _⟩ => show (0 : Nat) = if (1 : Nat) = 1 then 0 else _; rw [if_pos rfl])]
  show Ideal.div ((s i : EReal) + h i) (max (n (ix2 (i 0) (0 : Fin 1)) : EReal) (Ideal.ofBits .f32 0x3F800000#32)) + r i = _
  rw [Ideal.ofBits_one_f32]

/-- The whole-array spelling, with the residual layer still split into its product D and its bias b: the counts'
    maximum with one (`o` is the array of ones) broadcast to a column and along the columns divides the sum, then D and
    the bias broadcast to every row are added one after the other. Addition of extended reals is associative, so this
    is the combination with residual D + b. -/
theorem combine_host (M : Nat) (hM : M ≠ 1) (S H D : FVec Ideal ⟨2, ![M, 128]⟩ .f32) (cnt o : FVec Ideal ⟨1, ![M]⟩ .f32)
    (B : FVec Ideal ⟨2, ![M, 128]⟩ .f32) (ho : ∀ e, (o e : EReal) = 1)
    (hc1 : (⟨1, ![M]⟩ : Shape).BroadcastsInDim ⟨2, ![M, 1]⟩ ![0])
    (hc2 : (⟨2, ![M, 1]⟩ : Shape).BroadcastsInDim ⟨2, ![M, 128]⟩ ![0, 1])
    (hs : (⟨1, ![M]⟩ : Shape).ShapeCasts ⟨2, ![M, 1]⟩) :
    addf (addf (Host.divf (addf S H)
          (broadcastInDim ⟨2, ![M, 128]⟩ ![0, 1] hc2 (broadcastInDim ⟨2, ![M, 1]⟩ ![0] hc1 (maximumf o cnt)))) D) B
      = combine M S (shapeCast ⟨2, ![M, 1]⟩ cnt hs) H (addf D B) := by
  funext i
  have hbc : broadcastInDim ⟨2, ![M, 128]⟩ ![0, 1] hc2 (broadcastInDim ⟨2, ![M, 1]⟩ ![0] hc1 (maximumf o cnt)) i
      = maximumf o cnt (ix1 (i 0)) :=
    (broadcastInDim_apply ![0, 1] hc2 _ i (ix2 (i 0) (0 : Fin 1)) (fun a => by
      match a with
      | ⟨0, _⟩ => show (i 0).val = if M = 1 then 0 else (i 0).val; rw [if_neg hM]
      | ⟨1, _⟩ => show (0 : Nat) = if (1 : Nat) = 1 then 0 else _; rw [if_pos rfl])).trans
    (broadcastInDim_apply ![0] hc1 _ (ix2 (i 0) (0 : Fin 1)) (ix1 (i 0)) (fun a => by
      match a with
      | ⟨0, _⟩ => show (i 0).val = if M = 1 then 0 else (i 0).val; rw [if_neg hM]))
  have hsc : shapeCast ⟨2, ![M, 1]⟩ cnt hs (ix2 (i 0) (0 : Fin 1)) = cnt (ix1 (i 0)) :=
    shapeCast_apply cnt hs (ix2 (i 0) (0 : Fin 1)) (ix1 (i 0))
      (by rewrite [Shape.rowMajor_val_one, Shape.rowMajor_val_two]; show (i 0).val = (i 0).val * 1 + 0; omega)
  show (Ideal.div ((S i : EReal) + H i)
        (broadcastInDim ⟨2, ![M, 128]⟩ ![0, 1] hc2 (broadcastInDim ⟨2, ![M, 1]⟩ ![0] hc1 (maximumf o cnt)) i) + D i) + B i
    = Ideal.div ((S i : EReal) + H i) (max (shapeCast ⟨2, ![M, 1]⟩ cnt hs (ix2 (i 0) (0 : Fin 1)) : EReal) 1) + ((D i : EReal) + B i)
  rw [hbc, hsc, add_assoc]
  show Ideal.div ((S i : EReal) + H i) (max (o (ix1 (i 0)) : EReal) (cnt (ix1 (i 0)))) + ((D i : EReal) + B i) = _
  rw [ho, max_comm]

/-- Row locality of the combination: it is entrywise in S, H, R and reads the count of the entry's row. -/
theorem combine_rows {Mb M : Nat} (S H R : FVec Ideal ⟨2, ![M, 128]⟩ .f32) (n : FVec Ideal ⟨2, ![M, 1]⟩ .f32)
    (s h r : FVec Ideal ⟨2, ![Mb, 128]⟩ .f32) (nb : FVec Ideal ⟨2, ![Mb, 1]⟩ .f32)
    (j : (⟨2, ![Mb, 128]⟩ : Shape).Idx) (i : (⟨2, ![M, 128]⟩ : Shape).Idx)
    (hS : s j = S i) (hH : h j = H i) (hR : r j = R i)
    (hn : nb (ix2 (j 0) (0 : Fin 1)) = n (ix2 (i 0) (0 : Fin 1))) :
    combine Mb s nb h r j = combine M S n H R i := by
  show Ideal.div ((s j : EReal) + h j) (max (nb (ix2 (j 0) (0 : Fin 1)) : EReal) 1) + r j
    = Ideal.div ((S i : EReal) + H i) (max (n (ix2 (i 0) (0 : Fin 1)) : EReal) 1) + R i
  rw [hS, hH, hR, hn]

end GatedConv

end
-- ==== Proof.DenseRegion.lean ====
/-
  The five dense layers, tile by tile, are the dense layers of the whole row array.

  The first pipeline cuts the [50000, 128] row array X into 25 blocks of 2000 rows; at block t it sends the block
  through five dense layers x * W + b (each with its own square weights W and bias b, both read whole at every
  block) and writes each result into block t of its own [50000, 128] array. An entry of a dense layer reads one
  row of the left operand, so block t of a result is block t of the layer of the whole X; the 25 blocks tile the
  50000 rows (row r lies in block r / 2000), so each result array is the dense layer of X, whatever the arrays
  hold when the pipeline is entered.
-/
import proofs.«113870_j86285892976710_1_alg».proof.Proof.Gen.KernelIdeal.Frame
import proofs.«113870_j86285892976710_1_alg».proof.Proof.GatedLayers
import Idealize.ShloMosaic.Lib.Pipeline.Value

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2' : (![0, 0] : Fin 2 → Nat) = fun _ => 0 := funext fun a => by fin_cases a <;> rfl
theorem zero1 : (![0] : Fin 1 → Nat) = fun _ => 0 := funext fun a => by fin_cases a; rfl

/-- Where each window is at point t: the rows' window and the five results' at block (t, 0), the weights and the
    biases at their one block. -/
theorem dense_index : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = t.val
    ∧ win0_11.index t (1 : Fin 2) = 0
    ∧ win0_12.index t (0 : Fin 2) = t.val
    ∧ win0_12.index t (1 : Fin 2) = 0
    ∧ win0_13.index t (0 : Fin 2) = t.val
    ∧ win0_13.index t (1 : Fin 2) = 0
    ∧ win0_14.index t (0 : Fin 2) = t.val
    ∧ win0_14.index t (1 : Fin 2) = 0
    ∧ win0_15.index t (0 : Fin 2) = t.val
    ∧ win0_15.index t (1 : Fin 2) = 0 :=
  (by decide +kernel : ∀ t : Fin grid0.N, _)

/-- The printed dimension numbers are the plain ones: rows by contraction times contraction by columns. -/
theorem dot_plain : dot_S2000x128_S128x128_S2000x128_1_0_0_1_n_n = DotDims.plain 2000 128 128 := rfl

/-- The body's arithmetic for each result is the dense layer of the tile. -/
theorem dense_pay_11 (x : Vec Ideal S2000x128 .f32) (w : Vec Ideal S128x128 .f32) (b : Vec Ideal S128 .f32) :
    k0_pay4 (F := Ideal) x w b = GatedConv.dense 2000 x w b :=
  GatedConv.dense_tile 2000 x w b _ _ _ _
theorem dense_pay_12 (x : Vec Ideal S2000x128 .f32) (w : Vec Ideal S128x128 .f32) (b : Vec Ideal S128 .f32) :
    k0_pay5 (F := Ideal) x w b = GatedConv.dense 2000 x w b :=
  GatedConv.dense_tile 2000 x w b _ _ _ _
theorem dense_pay_13 (x : Vec Ideal S2000x128 .f32) (w : Vec Ideal S128x128 .f32) (b : Vec Ideal S128 .f32) :
    k0_pay6 (F := Ideal) x w b = GatedConv.dense 2000 x w b :=
  GatedConv.dense_tile 2000 x w b _ _ _ _
theorem dense_pay_14 (x : Vec Ideal S2000x128 .f32) (w : Vec Ideal S128x128 .f32) (b : Vec Ideal S128 .f32) :
    k0_pay1 (F := Ideal) (k0_pay7 (F := Ideal) x w) b = GatedConv.dense 2000 x w b :=
  GatedConv.dense_tile 2000 x w b _ _ _ _
theorem dense_pay_15 (x : Vec Ideal S2000x128 .f32) (w : Vec Ideal S128x128 .f32) (b : Vec Ideal S128 .f32) :
    k0_pay2 (F := Ideal) (k0_pay3 (F := Ideal) x) w b = GatedConv.dense 2000 x w b :=
  GatedConv.dense_tile 2000 x w b _ _ _ _

/-! ## The first layer's result (window 11) -/

/-- What point t writes back is block t of the dense layer of the whole row array. -/
theorem dense_flushed_11 (c : Dev nD) (t : Fin cfg0.N) :
    (dat0 V c).flushed 11 t
      = ((cfg0.win 11).blk t).view.read (Elt Ideal) (GatedConv.dense 50000 (V c main_arg0) (V c main_v4) (V c main_arg3)) := by
  show (cfg0.win 11).cut (grid0.coords t) ((dat0 V c).after 11 t) = _
  rw [after0_11]
  unfold out0_11
  rw [View.canon_unit_zero zero2']
  simp only [View.ld_unit_zero (S := S2000x128) zero2', View.ld_unit_zero (S := S128x128) zero2', View.ld_unit_zero (S := S128) zero1]
  rw [dense_pay_11]
  obtain ⟨e0, e1, e2, e3, e4, e5, e6, e7, e8, e9, e10, e11, e12, e13, e14, e15, e16, e17, e18, e19, e20, e21, e22, e23, e24, e25, e26⟩ := dense_index t
  funext j
  refine GatedConv.dense_entry (V c main_arg0) (V c main_v4) (V c main_arg3) _ _ _ j (((cfg0.win 11).blk t).view.emb j)
    (fun k => ?_) (fun k => ?_) ?_
  · show V c main_arg0 (((cfg0.win 0).blk t).view.emb (ix2 (j 0) k)) = V c main_arg0 (ix2 ((((cfg0.win 11).blk t).view.emb j) 0) k)
    refine congrArg _ (funext fun a => Fin.ext ?_)
    match a with
    | ⟨0, _⟩ => show win0_0.index t (0 : Fin 2) * 2000 + 1 * (j 0).val = win0_11.index t (0 : Fin 2) * 2000 + 1 * (j 0).val; omega
    | ⟨1, _⟩ => show win0_0.index t (1 : Fin 2) * 128 + 1 * k.val = k.val; omega
  · show V c main_v4 (((cfg0.win 1).blk t).view.emb (ix2 k (j 1))) = V c main_v4 (ix2 k ((((cfg0.win 11).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_11.index t (1 : Fin 2) * 128 + 1 * (j 1).val; omega
  · show V c main_arg3 (((cfg0.win 2).blk t).view.emb (ix1 (j 1))) = V c main_arg3 (ix1 ((((cfg0.win 11).blk t).view.emb j) 1))
    refine congrArg _ (funext fun a => Fin.ext ?_)
    match a with
    | ⟨0, _⟩ => show win0_2.index t (0 : Fin 1) * 128 + 1 * (j 1).val = win0_11.index t (1 : Fin 2) * 128 + 1 * (j 1).val; omega

/-- An entry of the result array is in point t's block iff each coordinate is in the block's range. -/
theorem dense_mem_blk_11 (t : Fin cfg0.N) (i : S50000x128.Idx) :
    i ∈ ((cfg0.win 11).blk t).view.set ↔ ∀ a : Fin 2, win0_11.index t a * S2000x128.size a ≤ (i a).val
      ∧ (i a).val < win0_11.index t a * S2000x128.size a + S2000x128.size a := by
  show i ∈ ((View.whole main_v9_0).slice (win0_11.rect t)).set ↔ _
  rw [View.set_slice_whole, Rect.mem_set_unit]
  exact Iff.rfl

/-- The 25 blocks tile the rows: row r is in block r / 2000. -/
theorem dense_cover_11 (i : S50000x128.Idx) :
    ∃ t : Fin cfg0.N, (cfg0.win 11).flush t = true ∧ i ∈ ((cfg0.win 11).blk t).view.set := by
  have hi0 : (i 0).val < 50000 := (i 0).isLt
  have hi1 : (i 1).val < 128 := (i 1).isLt
  have hN : grid0.N = 25 := N_0
  obtain ⟨t, ht⟩ : ∃ t : Fin cfg0.N, t.val = (i 0).val / 2000 :=
    ⟨⟨(i 0).val / 2000, by show (i 0).val / 2000 < grid0.N; omega⟩, rfl⟩
  obtain ⟨e0, e1, e2, e3, e4, e5, e6, e7, e8, e9, e10, e11, e12, e13, e14, e15, e16, e17, e18, e19, e20, e21, e22, e23, e24, e25, e26⟩ := dense_index t
  refine ⟨t, flush0_11 t, ?_⟩
  rw [dense_mem_blk_11]
  intro a
  match a with
  | ⟨0, _⟩ => show win0_11.index t (0 : Fin 2) * 2000 ≤ (i 0).val ∧ (i 0).val < win0_11.index t (0 : Fin 2) * 2000 + 2000; omega
  | ⟨1, _⟩ => show win0_11.index t (1 : Fin 2) * 128 ≤ (i 1).val ∧ (i 1).val < win0_11.index t (1 : Fin 2) * 128 + 128; omega

/-- The result array after the pipeline is the dense layer of the arrays it was entered with. -/
theorem dense_final_11 (c : Dev nD) :
    (dat0 V c).arrAt 11 cfg0.N = GatedConv.dense 50000 (V c main_arg0) (V c main_v4) (V c main_arg3) :=
  (dat0 V c).arrAt_eq_of_cover 11 _ (fun t _ => dense_flushed_11 V c t) dense_cover_11

/-! ## The second layer's result (window 12) -/

/-- What point t writes back is block t of the dense layer of the whole row array. -/
theorem dense_flushed_12 (c : Dev nD) (t : Fin cfg0.N) :
    (dat0 V c).flushed 12 t
      = ((cfg0.win 12).blk t).view.read (Elt Ideal) (GatedConv.dense 50000 (V c main_arg0) (V c main_v5) (V c main_arg5)) := by
  show (cfg0.win 12).cut (grid0.coords t) ((dat0 V c).after 12 t) = _
  rw [after0_12]
  unfold out0_12
  rw [View.canon_unit_zero zero2']
  simp only [View.ld_unit_zero (S := S2000x128) zero2', View.ld_unit_zero (S := S128x128) zero2', View.ld_unit_zero (S := S128) zero1]
  rw [dense_pay_12]
  obtain ⟨e0, e1, e2, e3, e4, e5, e6, e7, e8, e9, e10, e11, e12, e13, e14, e15, e16, e17, e18, e19, e20, e21, e22, e23, e24, e25, e26⟩ := dense_index t
  funext j
  refine GatedConv.dense_entry (V c main_arg0) (V c main_v5) (V c main_arg5) _ _ _ j (((cfg0.win 12).blk t).view.emb j)
    (fun k => ?_) (fun k => ?_) ?_
  · show V c main_arg0 (((cfg0.win 0).blk t).view.emb (ix2 (j 0) k)) = V c main_arg0 (ix2 ((((cfg0.win 12).blk t).view.emb j) 0) k)
    refine congrArg _ (funext fun a => Fin.ext ?_)
    match a with
    | ⟨0, _⟩ => show win0_0.index t (0 : Fin 2) * 2000 + 1 * (j 0).val = win0_12.index t (0 : Fin 2) * 2000 + 1 * (j 0).val; omega
    | ⟨1, _⟩ => show win0_0.index t (1 : Fin 2) * 128 + 1 * k.val = k.val; omega
  · show V c main_v5 (((cfg0.win 3).blk t).view.emb (ix2 k (j 1))) = V c main_v5 (ix2 k ((((cfg0.win 12).blk t).view.emb j) 1))
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_12.index t (1 : Fin 2) * 128 + 1 * (j 1).val; omega
  · show V c main_arg5 (((cfg0.win 4).blk t).view.emb (ix1 (j 1))) = V c main_arg5 (ix1 ((((cfg0.win 12).blk t).view.emb j) 1))
    refine congrArg _ (funext fun a => Fin.ext ?_)
    match a with
    | ⟨0, _⟩ => show win0_4.index t (0 : Fin 1) * 128 + 1 * (j 1).val = win0_12.index t (1 : Fin 2) * 128 + 1 * (j 1).val; omega

/-- An entry of the result array is in point t's block iff each coordinate is in the block's range. -/
theorem dense_mem_blk_12 (t : Fin cfg0.N) (i : S50000x128.Idx) :
    i ∈ ((cfg0.win 12).blk t).view.set ↔ ∀ a : Fin 2, win0_12.index t a * S2000x128.size a ≤ (i a).val
      ∧ (i a).val < win0_12.index t a * S2000x128.size a + S2000x128.size a := by
  show i ∈ ((View.whole main_v9_1).slice (win0_12.rect t)).set ↔ _
  rw [View.set_slice_whole, Rect.mem_set_unit]
  exact Iff.rfl

/-- The 25 blocks tile the rows: row r is in block r / 2000. -/
theorem dense_cover_12 (i : S50000x128.Idx) :
    ∃ t : Fin cfg0.N, (cfg0.win 12).flush t = true ∧ i ∈ ((cfg0.win 12).blk t).view.set := by
  have hi0 : (i 0).val < 50000 := (i 0).isLt
  have hi1 : (i 1).val < 128 := (i 1).isLt
  have hN : grid0.N = 25 := N_0
  obtain ⟨t, ht⟩ : ∃ t : Fin cfg0.N, t.val = (i 0).val / 2000 :=
    ⟨⟨(i 0).val / 2000, by show (i 0).val / 2000 < grid0.N; omega⟩, rfl⟩
  obtain ⟨e0, e1, e2, e3, e4, e5, e6, e7, e8, e9, e10, e11, e12, e13, e14, e15, e16, e17, e18, e19, e20, e21, e22, e23, e24, e25, e26⟩ := dense_index t
  refine ⟨t, flush0_12 t, ?_⟩
  rw [dense_mem_blk_12]
  intro a
  match a with
  | ⟨0, _⟩ => show win0_12.index t (0 : Fin 2) * 2000 ≤ (i 0).val ∧ (i 0).val < win0_12.index t (0 : Fin 2) * 2000 + 2000; omega
  | ⟨1, _⟩ => show win0_12.index t (1 : Fin 2) * 128 ≤ (i 1).val ∧ (i 1).val < win0_12.index t (1 : Fin 2) * 128 + 128; omega

/-- The result array after the pipeline is the dense layer of the arrays it was entered with. -/
theorem dense_final_12 (c : Dev nD) :
    (dat0 V c).arrAt 12 cfg0.N = GatedConv.dense 50000 (V c main_arg0) (V c main_v5) (V c main_arg5) :=
  (dat0 V c).arrAt_eq_of_cover 12 _ (fun t _ => dense_flushed_12 V c t) dense_cover_12

/-! ## The third layer's result (window 13) -/

/-- What point t writes back is block t of the dense layer of the whole row array. -/
theorem dense_flushed_13 (c : Dev nD) (t : Fin cfg0.N) :
    (dat0 V c).flushed 13 t
      = ((cfg0.win 13).blk t).view.read (Elt Ideal) (GatedConv.dense 50000 (V c main_arg0) (V c main_v6) (V c main_arg7)) := by
  show (cfg0.win 13).cut (grid0.coords t) ((dat0 V c).after 13 t) = _
  rw [after0_13]
  unfold out0_13
  rw [View.canon_unit_zero zero2']
  simp only [View.ld_unit_zero (S := S2000x128) zero2', View.ld_unit_zero (S := S128x128) zero2', View.ld_unit_zero (S := S128) zero1]
  rw [dense_pay_13]
  obtain ⟨e0, e1, e2, e3, e4, e5, e6, e7, e8, e9, e10, e11, e12, e13, e14, e15, e16, e17, e18, e19, e20, e21, e22, e23, e24, e25, e26⟩ := dense_index t
  funext j
  refine GatedConv.dense_entry (V c main_arg0) (V c main_v6) (V c main_arg7) _ _ _ j (((cfg0.win 13).blk t).view.emb j)
    (fun k => ?_) (fun k => ?_) ?_
  · show V c main_arg0 (((cfg0.win 0).blk t).view.emb (ix2 (j 0) k)) = V c main_arg0 (ix2 ((((cfg0.win 13).blk t).view.emb j) 0) k)
    refine congrArg _ (funext fun a => Fin.ext ?_)
    match a with
    | ⟨0, _⟩ => show win0_0.index t (0 : Fin 2) * 2000 + 1 * (j 0).val = win0_13.index t (0 : Fin 2) * 2000 + 1 * (j 0).val; omega
    | ⟨1, _⟩ => show win0_0.index t (1 : Fin 2) * 128 + 1 * k.val = k.val; omega
  · show V c main_v6 (((cfg0.win 5).blk t).view.emb (ix2 k (j 1))) = V c main_v6 (ix2 k ((((cfg0.win 13).blk t).view.emb j) 1))
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * (j 1).val = win0_13.index t (1 : Fin 2) * 128 + 1 * (j 1).val; omega
  · show V c main_arg7 (((cfg0.win 6).blk t).view.emb (ix1 (j 1))) = V c main_arg7 (ix1 ((((cfg0.win 13).blk t).view.emb j) 1))
    refine congrArg _ (funext fun a => Fin.ext ?_)
    match a with
    | ⟨0, _⟩ => show win0_6.index t (0 : Fin 1) * 128 + 1 * (j 1).val = win0_13.index t (1 : Fin 2) * 128 + 1 * (j 1).val; omega

/-- An entry of the result array is in point t's block iff each coordinate is in the block's range. -/
theorem dense_mem_blk_13 (t : Fin cfg0.N) (i : S50000x128.Idx) :
    i ∈ ((cfg0.win 13).blk t).view.set ↔ ∀ a : Fin 2, win0_13.index t a * S2000x128.size a ≤ (i a).val
      ∧ (i a).val < win0_13.index t a * S2000x128.size a + S2000x128.size a := by
  show i ∈ ((View.whole main_v9_2).slice (win0_13.rect t)).set ↔ _
  rw [View.set_slice_whole, Rect.mem_set_unit]
  exact Iff.rfl

/-- The 25 blocks tile the rows: row r is in block r / 2000. -/
theorem dense_cover_13 (i : S50000x128.Idx) :
    ∃ t : Fin cfg0.N, (cfg0.win 13).flush t = true ∧ i ∈ ((cfg0.win 13).blk t).view.set := by
  have hi0 : (i 0).val < 50000 := (i 0).isLt
  have hi1 : (i 1).val < 128 := (i 1).isLt
  have hN : grid0.N = 25 := N_0
  obtain ⟨t, ht⟩ : ∃ t : Fin cfg0.N, t.val = (i 0).val / 2000 :=
    ⟨⟨(i 0).val / 2000, by show (i 0).val / 2000 < grid0.N; omega⟩, rfl⟩
  obtain ⟨e0, e1, e2, e3, e4, e5, e6, e7, e8, e9, e10, e11, e12, e13, e14, e15, e16, e17, e18, e19, e20, e21, e22, e23, e24, e25, e26⟩ := dense_index t
  refine ⟨t, flush0_13 t, ?_⟩
  rw [dense_mem_blk_13]
  intro a
  match a with
  | ⟨0, _⟩ => show win0_13.index t (0 : Fin 2) * 2000 ≤ (i 0).val ∧ (i 0).val < win0_13.index t (0 : Fin 2) * 2000 + 2000; omega
  | ⟨1, _⟩ => show win0_13.index t (1 : Fin 2) * 128 ≤ (i 1).val ∧ (i 1).val < win0_13.index t (1 : Fin 2) * 128 + 128; omega

/-- The result array after the pipeline is the dense layer of the arrays it was entered with. -/
theorem dense_final_13 (c : Dev nD) :
    (dat0 V c).arrAt 13 cfg0.N = GatedConv.dense 50000 (V c main_arg0) (V c main_v6) (V c main_arg7) :=
  (dat0 V c).arrAt_eq_of_cover 13 _ (fun t _ => dense_flushed_13 V c t) dense_cover_13

/-! ## The fourth layer's result (window 14) -/

/-- What point t writes back is block t of the dense layer of the whole row array. -/
theorem dense_flushed_14 (c : Dev nD) (t : Fin cfg0.N) :
    (dat0 V c).flushed 14 t
      = ((cfg0.win 14).blk t).view.read (Elt Ideal) (GatedConv.dense 50000 (V c main_arg0) (V c main_v7) (V c main_arg9)) := by
  show (cfg0.win 14).cut (grid0.coords t) ((dat0 V c).after 14 t) = _
  rw [after0_14]
  unfold out0_14
  rw [View.canon_unit_zero zero2']
  simp only [View.ld_unit_zero (S := S2000x128) zero2', View.ld_unit_zero (S := S128x128) zero2', View.ld_unit_zero (S := S128) zero1]
  rw [dense_pay_14]
  obtain ⟨e0, e1, e2, e3, e4, e5, e6, e7, e8, e9, e10, e11, e12, e13, e14, e15, e16, e17, e18, e19, e20, e21, e22, e23, e24, e25, e26⟩ := dense_index t
  funext j
  refine GatedConv.dense_entry (V c main_arg0) (V c main_v7) (V c main_arg9) _ _ _ j (((cfg0.win 14).blk t).view.emb j)
    (fun k => ?_) (fun k => ?_) ?_
  · show V c main_arg0 (((cfg0.win 0).blk t).view.emb (ix2 (j 0) k)) = V c main_arg0 (ix2 ((((cfg0.win 14).blk t).view.emb j) 0) k)
    refine congrArg _ (funext fun a => Fin.ext ?_)
    match a with
    | ⟨0, _⟩ => show win0_0.index t (0 : Fin 2) * 2000 + 1 * (j 0).val = win0_14.index t (0 : Fin 2) * 2000 + 1 * (j 0).val; omega
    | ⟨1, _⟩ => show win0_0.index t (1 : Fin 2) * 128 + 1 * k.val = k.val; omega
  · show V c main_v7 (((cfg0.win 7).blk t).view.emb (ix2 k (j 1))) = V c main_v7 (ix2 k ((((cfg0.win 14).blk t).view.emb j) 1))
    refine congrArg _ (funext fun a => Fin.ext ?_)
    match a with
    | ⟨0, _⟩ => show win0_7.index t (0 : Fin 2) * 128 + 1 * k.val = k.val; omega
    | ⟨1, _⟩ => show win0_7.index t (1 : Fin 2) * 128 + 1 * (j 1).val = win0_14.index t (1 : Fin 2) * 128 + 1 * (j 1).val; omega
  · show V c main_arg9 (((cfg0.win 8).blk t).view.emb (ix1 (j 1))) = V c main_arg9 (ix1 ((((cfg0.win 14).blk t).view.emb j) 1))
    refine congrArg _ (funext fun a => Fin.ext ?_)
    match a with
    | ⟨0, _⟩ => show win0_8.index t (0 : Fin 1) * 128 + 1 * (j 1).val = win0_14.index t (1 : Fin 2) * 128 + 1 * (j 1).val; omega

/-- An entry of the result array is in point t's block iff each coordinate is in the block's range. -/
theorem dense_mem_blk_14 (t : Fin cfg0.N) (i : S50000x128.Idx) :
    i ∈ ((cfg0.win 14).blk t).view.set ↔ ∀ a : Fin 2, win0_14.index t a * S2000x128.size a ≤ (i a).val
      ∧ (i a).val < win0_14.index t a * S2000x128.size a + S2000x128.size a := by
  show i ∈ ((View.whole main_v9_3).slice (win0_14.rect t)).set ↔ _
  rw [View.set_slice_whole, Rect.mem_set_unit]
  exact Iff.rfl

/-- The 25 blocks tile the rows: row r is in block r / 2000. -/
theorem dense_cover_14 (i : S50000x128.Idx) :
    ∃ t : Fin cfg0.N, (cfg0.win 14).flush t = true ∧ i ∈ ((cfg0.win 14).blk t).view.set := by
  have hi0 : (i 0).val < 50000 := (i 0).isLt
  have hi1 : (i 1).val < 128 := (i 1).isLt
  have hN : grid0.N = 25 := N_0
  obtain ⟨t, ht⟩ : ∃ t : Fin cfg0.N, t.val = (i 0).val / 2000 :=
    ⟨⟨(i 0).val / 2000, by show (i 0).val / 2000 < grid0.N; omega⟩, rfl⟩
  obtain ⟨e0, e1, e2, e3, e4, e5, e6, e7, e8, e9, e10, e11, e12, e13, e14, e15, e16, e17, e18, e19, e20, e21, e22, e23, e24, e25, e26⟩ := dense_index t
  refine ⟨t, flush0_14 t, ?_⟩
  rw [dense_mem_blk_14]
  intro a
  match a with
  | ⟨0, _⟩ => show win0_14.index t (0 : Fin 2) * 2000 ≤ (i 0).val ∧ (i 0).val < win0_14.index t (0 : Fin 2) * 2000 + 2000; omega
  | ⟨1, _⟩ => show win0_14.index t (1 : Fin 2) * 128 ≤ (i 1).val ∧ (i 1).val < win0_14.index t (1 : Fin 2) * 128 + 128; omega

/-- The result array after the pipeline is the dense layer of the arrays it was entered with. -/
theorem dense_final_14 (c : Dev nD) :
    (dat0 V c).arrAt 14 cfg0.N = GatedConv.dense 50000 (V c main_arg0) (V c main_v7) (V c main_arg9) :=
  (dat0 V c).arrAt_eq_of_cover 14 _ (fun t _ => dense_flushed_14 V c t) dense_cover_14

/-! ## The residual layer's result (window 15) -/

/-- What point t writes back is block t of the dense layer of the whole row array. -/
theorem dense_flushed_15 (c : Dev nD) (t : Fin cfg0.N) :
    (dat0 V c).flushed 15 t
      = ((cfg0.win 15).blk t).view.read (Elt Ideal) (GatedConv.dense 50000 (V c main_arg0) (V c main_v8) (V c main_arg11)) := by
  show (cfg0.win 15).cut (grid0.coords t) ((dat0 V c).after 15 t) = _
  rw [after0_15]
  unfold out0_15
  rw [View.canon_unit_zero zero2']
  simp only [View.ld_unit_zero (S := S2000x128) zero2', View.ld_unit_zero (S := S128x128) zero2', View.ld_unit_zero (S := S128) zero1]
  rw [dense_pay_15]
  obtain ⟨e0, e1, e2, e3, e4, e5, e6, e7, e8, e9, e10, e11, e12, e13, e14, e15, e16, e17, e18, e19, e20, e21, e22, e23, e24, e25, e26⟩ := dense_index t
  funext j
  refine GatedConv.dense_entry (V c main_arg0) (V c main_v8) (V c main_arg11) _ _ _ j (((cfg0.win 15).blk t).view.emb j)
    (fun k => ?_) (fun k => ?_) ?_
  · show V c main_arg0 (((cfg0.win 0).blk t).view.emb (ix2 (j 0) k)) = V c main_arg0 (ix2 ((((cfg0.win 15).blk t).view.emb j) 0) k)
    refine congrArg _ (funext fun a => Fin.ext ?_)
    match a with
    | ⟨0, _⟩ => show win0_0.index t (0 : Fin 2) * 2000 + 1 * (j 0).val = win0_15.index t (0 : Fin 2) * 2000 + 1 * (j 0).val; omega
    | ⟨1, _⟩ => show win0_0.index t (1 : Fin 2) * 128 + 1 * k.val = k.val; omega
  · show V c main_v8 (((cfg0.win 9).blk t).view.emb (ix2 k (j 1))) = V c main_v8 (ix2 k ((((cfg0.win 15).blk t).view.emb j) 1))
    refine congrArg _ (funext fun a => Fin.ext ?_)
    match a with
    | ⟨0, _⟩ => show win0_9.index t (0 : Fin 2) * 128 + 1 * k.val = k.val; omega
    | ⟨1, _⟩ => show win0_9.index t (1 : Fin 2) * 128 + 1 * (j 1).val = win0_15.index t (1 : Fin 2) * 128 + 1 * (j 1).val; omega
  · show V c main_arg11 (((cfg0.win 10).blk t).view.emb (ix1 (j 1))) = V c main_arg11 (ix1 ((((cfg0.win 15).blk t).view.emb j) 1))
    refine congrArg _ (funext fun a => Fin.ext ?_)
    match a with
    | ⟨0, _⟩ => show win0_10.index t (0 : Fin 1) * 128 + 1 * (j 1).val = win0_15.index t (1 : Fin 2) * 128 + 1 * (j 1).val; omega

/-- An entry of the result array is in point t's block iff each coordinate is in the block's range. -/
theorem dense_mem_blk_15 (t : Fin cfg0.N) (i : S50000x128.Idx) :
    i ∈ ((cfg0.win 15).blk t).view.set ↔ ∀ a : Fin 2, win0_15.index t a * S2000x128.size a ≤ (i a).val
      ∧ (i a).val < win0_15.index t a * S2000x128.size a + S2000x128.size a := by
  show i ∈ ((View.whole main_v9_4).slice (win0_15.rect t)).set ↔ _
  rw [View.set_slice_whole, Rect.mem_set_unit]
  exact Iff.rfl

/-- The 25 blocks tile the rows: row r is in block r / 2000. -/
theorem dense_cover_15 (i : S50000x128.Idx) :
    ∃ t : Fin cfg0.N, (cfg0.win 15).flush t = true ∧ i ∈ ((cfg0.win 15).blk t).view.set := by
  have hi0 : (i 0).val < 50000 := (i 0).isLt
  have hi1 : (i 1).val < 128 := (i 1).isLt
  have hN : grid0.N = 25 := N_0
  obtain ⟨t, ht⟩ : ∃ t : Fin cfg0.N, t.val = (i 0).val / 2000 :=
    ⟨⟨(i 0).val / 2000, by show (i 0).val / 2000 < grid0.N; omega⟩, rfl⟩
  obtain ⟨e0, e1, e2, e3, e4, e5, e6, e7, e8, e9, e10, e11, e12, e13, e14, e15, e16, e17, e18, e19, e20, e21, e22, e23, e24, e25, e26⟩ := dense_index t
  refine ⟨t, flush0_15 t, ?_⟩
  rw [dense_mem_blk_15]
  intro a
  match a with
  | ⟨0, _⟩ => show win0_15.index t (0 : Fin 2) * 2000 ≤ (i 0).val ∧ (i 0).val < win0_15.index t (0 : Fin 2) * 2000 + 2000; omega
  | ⟨1, _⟩ => show win0_15.index t (1 : Fin 2) * 128 ≤ (i 1).val ∧ (i 1).val < win0_15.index t (1 : Fin 2) * 128 + 128; omega

/-- The result array after the pipeline is the dense layer of the arrays it was entered with. -/
theorem dense_final_15 (c : Dev nD) :
    (dat0 V c).arrAt 15 cfg0.N = GatedConv.dense 50000 (V c main_arg0) (V c main_v8) (V c main_arg11) :=
  (dat0 V c).arrAt_eq_of_cover 15 _ (fun t _ => dense_flushed_15 V c t) dense_cover_15

end Cert.KernelIdeal.Layers

end
-- ==== Proof.GateRegion.lean ====
/-
  The edge gate, tile by tile, is the gate of the whole edge arrays.

  The second pipeline cuts the three [800000, 128] edge arrays A, B, C into 125 blocks of 6400 rows, and at
  block t writes sigma (a + b) * c of the three blocks into block t of its result. The gate is entrywise, so
  block t of the result is block t of `gate A B C`; the 125 blocks tile the 800000 rows (row r lies in block
  r / 6400), so the result array is `gate A B C`, whatever the arrays hold when the pipeline is entered.
-/
import proofs.«113870_j86285892976710_1_alg».proof.Proof.Gen.KernelIdeal.Frame
import proofs.«113870_j86285892976710_1_alg».proof.Proof.GatedLayers
import Idealize.ShloMosaic.Lib.Pipeline.Value

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The four windows move together: at point t each is at block (t, 0). -/
theorem gate_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The body's arithmetic on three tiles is their gate. -/
theorem gate_pay (a b d : Vec Ideal S6400x128 .f32) : k1_pay1 (F := Ideal) a b d = GatedConv.gate a b d :=
  GatedConv.gate_tile a b d _

/-- What point t writes back is block t of the gate of the three arrays as the pipeline finds them. -/
theorem gate_flushed (c : Dev nD) (t : Fin cfg1.N) :
    (dat1 V c).flushed 3 t
      = ((cfg1.win 3).blk t).view.read (Elt Ideal) (GatedConv.gate (V c main_v16) (V c main_v23) (V c main_v30)) := by
  show (cfg1.win 3).cut (grid1.coords t) ((dat1 V c).after 3 t) = _
  rw [after1_3]
  unfold out1_3
  rw [View.canon_unit_zero zero2]
  simp only [View.ld_unit_zero (S := S6400x128) zero2]
  rw [gate_pay]
  obtain ⟨e0, e1, e2, e3, e4, e5, e6, e7⟩ := gate_index t
  funext j
  have h0 : ((cfg1.win 0).blk t).view.emb j = ((cfg1.win 3).blk t).view.emb j := by
    funext a; apply Fin.ext
    match a with
    | ⟨0, _⟩ => show win1_0.index t (0 : Fin 2) * 6400 + 1 * (j 0).val = win1_3.index t (0 : Fin 2) * 6400 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 6400 + 1 * (j 0).val = win1_3.index t (0 : Fin 2) * 6400 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 6400 + 1 * (j 0).val = win1_3.index t (0 : Fin 2) * 6400 + 1 * (j 0).val; omega
    | ⟨1, _⟩ => show win1_2.index t (1 : Fin 2) * 128 + 1 * (j 1).val = win1_3.index t (1 : Fin 2) * 128 + 1 * (j 1).val; omega
  refine GatedConv.gate_entry (V c main_v16) (V c main_v23) (V c main_v30) _ _ _ j (((cfg1.win 3).blk t).view.emb j) ?_ ?_ ?_
  · show V c main_v16 (((cfg1.win 0).blk t).view.emb j) = V c main_v16 (((cfg1.win 3).blk t).view.emb j)
    rw [h0]
  · show V c main_v23 (((cfg1.win 1).blk t).view.emb j) = V c main_v23 (((cfg1.win 3).blk t).view.emb j)
    rw [h1]
  · show V c main_v30 (((cfg1.win 2).blk t).view.emb j) = V c main_v30 (((cfg1.win 3).blk t).view.emb j)
    rw [h2]

/-- An entry of the result array is in point t's block iff each coordinate is in the block's range. -/
theorem gate_mem_blk (t : Fin cfg1.N) (i : S800000x128.Idx) :
    i ∈ ((cfg1.win 3).blk t).view.set ↔ ∀ a : Fin 2, win1_3.index t a * S6400x128.size a ≤ (i a).val
      ∧ (i a).val < win1_3.index t a * S6400x128.size a + S6400x128.size a := by
  show i ∈ ((View.whole main_v31).slice (win1_3.rect t)).set ↔ _
  rw [View.set_slice_whole, Rect.mem_set_unit]
  exact Iff.rfl

/-- Every block of rows is some point's. -/
theorem gate_onto : ∀ q : Fin 125, ∃ t : Fin cfg1.N, win1_3.index t = ![q.val, 0] :=
  (by decide +kernel : ∀ q : Fin 125, ∃ t : Fin grid1.N, win1_3.index t = ![q.val, 0])

/-- The 125 blocks tile the rows: row r is in block r / 6400. -/
theorem gate_cover (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  obtain ⟨t, ht⟩ := gate_onto ⟨(i 0).val / 6400, by omega⟩
  have q0 : win1_3.index t (0 : Fin 2) = (i 0).val / 6400 := congrFun ht 0
  have q1 : win1_3.index t (1 : Fin 2) = 0 := congrFun ht 1
  refine ⟨t, flush1_3 t, ?_⟩
  rw [gate_mem_blk]
  intro a
  match a with
  | ⟨0, _⟩ => show win1_3.index t (0 : Fin 2) * 6400 ≤ (i 0).val ∧ (i 0).val < win1_3.index t (0 : Fin 2) * 6400 + 6400; omega
  | ⟨1, _⟩ => show win1_3.index t (1 : Fin 2) * 128 ≤ (i 1).val ∧ (i 1).val < win1_3.index t (1 : Fin 2) * 128 + 128; omega

/-- The result array after the pipeline is the gate of the three arrays it was entered with. -/
theorem gate_final (c : Dev nD) :
    (dat1 V c).arrAt 3 cfg1.N = GatedConv.gate (V c main_v16) (V c main_v23) (V c main_v30) :=
  (dat1 V c).arrAt_eq_of_cover 3 _ (fun t _ => gate_flushed V c t) gate_cover

end Cert.KernelIdeal.Layers

end
-- ==== Proof.CombineRegion.lean ====
/-
  The combination, tile by tile, is the combination of the whole arrays.

  The third pipeline cuts the aggregated messages S, the first layer's result H and the residual layer's result R
  (each [50000, 128]) and the one-column array n of counts ([50000, 1]) into 25 blocks of 2000 rows, and at block t
  writes (s + h) / max (n, 1) + r of the four blocks into block t of its result. The combination is entrywise in S,
  H and R and reads the count of the entry's own row, so block t of the result is block t of the combination of the
  whole arrays; the 25 blocks tile the 50000 rows, so the result array is `combine S n H R`.
-/
import proofs.«113870_j86285892976710_1_alg».proof.Proof.Gen.KernelIdeal.Frame
import proofs.«113870_j86285892976710_1_alg».proof.Proof.GatedLayers
import Idealize.ShloMosaic.Lib.Pipeline.Value

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The five windows move together: at point t each is at block (t, 0). -/
theorem combine_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The body's arithmetic on four tiles is their combination. -/
theorem combine_pay (s : Vec Ideal S2000x128 .f32) (n : Vec Ideal S2000x1 .f32) (h r : Vec Ideal S2000x128 .f32) :
    k2_pay1 (F := Ideal) s n h r = GatedConv.combine 2000 s n h r :=
  GatedConv.combine_tile 2000 (by decide) s h r n _ _ _

/-- What point t writes back is block t of the combination of the four arrays as the pipeline finds them. -/
theorem combine_flushed (c : Dev nD) (t : Fin cfg2.N) :
    (dat2 V c).flushed 4 t
      = ((cfg2.win 4).blk t).view.read (Elt Ideal)
          (GatedConv.combine 50000 (V c main_v34) (V c main_v39) (V c main_v9_0) (V c main_v9_4)) := by
  show (cfg2.win 4).cut (grid2.coords t) ((dat2 V c).after 4 t) = _
  rw [after2_4]
  unfold out2_4
  rw [View.canon_unit_zero origin2]
  simp only [View.ld_unit_zero (S := S2000x128) origin2, View.ld_unit_zero (S := S2000x1) origin2]
  rw [combine_pay]
  obtain ⟨e0, e1, e2, e3, e4, e5, e6, e7, e8, e9⟩ := combine_index t
  funext j
  refine GatedConv.combine_rows (V c main_v34) (V c main_v9_0) (V c main_v9_4) (V c main_v39) _ _ _ _ j
    (((cfg2.win 4).blk t).view.emb j) ?_ ?_ ?_ ?_
  · show V c main_v34 (((cfg2.win 0).blk t).view.emb j) = V c main_v34 (((cfg2.win 4).blk t).view.emb j)
    refine congrArg _ (funext fun a => Fin.ext ?_)
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 128 + 1 * (j 1).val = win2_4.index t (1 : Fin 2) * 128 + 1 * (j 1).val; omega
  · show V c main_v9_0 (((cfg2.win 2).blk t).view.emb j) = V c main_v9_0 (((cfg2.win 4).blk t).view.emb j)
    refine congrArg _ (funext fun a => Fin.ext ?_)
    match a with
    | ⟨0, _⟩ => show win2_2.index t (0 : Fin 2) * 2000 + 1 * (j 0).val = win2_4.index t (0 : Fin 2) * 2000 + 1 * (j 0).val; omega
    | ⟨1, _⟩ => show win2_2.index t (1 : Fin 2) * 128 + 1 * (j 1).val = win2_4.index t (1 : Fin 2) * 128 + 1 * (j 1).val; omega
  · show V c main_v9_4 (((cfg2.win 3).blk t).view.emb j) = V c main_v9_4 (((cfg2.win 4).blk t).view.emb j)
    refine congrArg _ (funext fun a => Fin.ext ?_)
    match a with
    | ⟨0, _⟩ => show win2_3.index t (0 : Fin 2) * 2000 + 1 * (j 0).val = win2_4.index t (0 : Fin 2) * 2000 + 1 * (j 0).val; omega
    | ⟨1, _⟩ => show win2_3.index t (1 : Fin 2) * 128 + 1 * (j 1).val = win2_4.index t (1 : Fin 2) * 128 + 1 * (j 1).val; omega
  · show V c main_v39 (((cfg2.win 1).blk t).view.emb (ix2 (j 0) (0 : Fin 1)))
      = V c main_v39 (ix2 ((((cfg2.win 4).blk t).view.emb j) 0) (0 : Fin 1))
    refine congrArg _ (funext fun a => Fin.ext ?_)
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 1 + 1 * 0 = 0; omega

/-- An entry of the result array is in point t's block iff each coordinate is in the block's range. -/
theorem combine_mem_blk (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v40).slice (win2_4.rect t)).set ↔ _
  rw [View.set_slice_whole, Rect.mem_set_unit]
  exact Iff.rfl

/-- The 25 blocks tile the rows: row r is in block r / 2000. -/
theorem combine_cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : grid2.N = 25 := N_2
  obtain ⟨t, ht⟩ : ∃ t : Fin cfg2.N, t.val = (i 0).val / 2000 :=
    ⟨⟨(i 0).val / 2000, by show (i 0).val / 2000 < grid2.N; omega⟩, rfl⟩
  obtain ⟨e0, e1, e2, e3, e4, e5, e6, e7, e8, e9⟩ := combine_index t
  refine ⟨t, flush2_4 t, ?_⟩
  rw [combine_mem_blk]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

/-- The result array after the pipeline is the combination of the four arrays it was entered with. -/
theorem combine_final (c : Dev nD) :
    (dat2 V c).arrAt 4 cfg2.N = GatedConv.combine 50000 (V c main_v34) (V c main_v39) (V c main_v9_0) (V c main_v9_4) :=
  (dat2 V c).arrAt_eq_of_cover 4 _ (fun t _ => combine_flushed V c t) combine_cover

end Cert.KernelIdeal.Layers

end
-- ==== Proof.Network.lean ====
/-
  The residual gated graph convolution as one function of the twelve argument arrays.

  With X the node features, (W1, b1) ... (W4, b4), (Wres, bres) the five layers' weights and biases, and the two rows
  of the edge array giving every edge's source and target:

    H_k   = dense X (transpose W_k) b_k                         (five dense layers on the nodes)
    msg   = gate (H_3 at the sources) (H_4 at the targets) (H_2 at the sources)      (one row per edge)
    S     = the messages summed into their target rows,  n = the number of edges into each row
    out   = combine S n H_1 H_res  =  (S + H_1) / max (n, 1) + H_res.

  "At the sources" is the table's rows gathered at the index row, a negative index first wrapped by adding the number
  of rows; the sums are scatter-adds into zero arrays. The gather and the scatter-add are the same whole-array
  operations in the kernel's program and in the reference, so they are carried as they are printed and never opened.
-/
import proofs.«113870_j86285892976710_1_alg».proof.KernelIdeal
import proofs.«113870_j86285892976710_1_alg».proof.Proof.Gen.KernelIdeal
import proofs.«113870_j86285892976710_1_alg».proof.Proof.GatedLayers

noncomputable section

namespace Cert.KernelIdeal.Layers

open Cert.KernelIdeal Cert.KernelIdeal.Facts₀ Cert.KernelIdeal.Facts Idealize.ShloMosaic Idealize.ShloMosaic.TcCoe

/-- The edges' sources: row 0 of the edge array. -/
def srcRow (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The edges' targets: row 1 of the edge array. -/
def dstRow (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- An index row as a column, with no wrapping. -/
def column (ix : (⟨S800000, .i32⟩ : BufTy).Contents (Elt Ideal)) : (⟨S800000x1, .i32⟩ : BufTy).Contents (Elt Ideal) :=
  broadcastInDim S800000x1 ![0] bcast_S800000_S800000x1_0 ix

/-- An index row as a column of start indices, a negative index wrapped by adding the 50000 rows. -/
def wrapped (ix : (⟨S800000, .i32⟩ : BufTy).Contents (Elt Ideal)) : (⟨S800000x1, .i32⟩ : BufTy).Contents (Elt Ideal) :=
  column (select (cmpi .slt ix (broadcastInDim S800000 ![] bcast_S_S800000 (constantI S_ 32 0#32)))
    (addi ix (broadcastInDim S800000 ![] bcast_S_S800000 (constantI S_ 32 50000#32))) ix)

/-- A table's rows at an index row. -/
def rowsAt (T : (⟨S50000x128, .f32⟩ : BufTy).Contents (Elt Ideal)) (ix : (⟨S800000, .i32⟩ : BufTy).Contents (Elt Ideal)) :
    (⟨S800000x128, .f32⟩ : BufTy).Contents (Elt Ideal) :=
  Host.gather gather_S50000x128_S800000x1_S800000x128_1_0_n_n_0_1_1128 T (wrapped ix)

/-- One row per edge summed into the rows of a zero table at an index row. -/
def sumInto (ix : (⟨S800000, .i32⟩ : BufTy).Contents (Elt Ideal)) (u : (⟨S800000x128, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32)) (column ix) u

/-- The number of edges into each row: ones summed at the index row, as a one-column matrix. -/
def countInto (ix : (⟨S800000, .i32⟩ : BufTy).Contents (Elt Ideal)) : (⟨S50000x1, .f32⟩ : BufTy).Contents (Elt Ideal) :=
  shapeCast S50000x1
    (Host.scatterAdd scatter_S50000_S800000x1_S800000_n_0_0_1
      (broadcastInDim S50000 ![] bcast_S_S50000 (constant (F := Ideal) S_ .f32 0x00000000#32)) (column ix)
      (broadcastInDim S800000 ![] bcast_S_S800000 (constant (F := Ideal) S_ .f32 0x3F800000#32)))
    shapeCasts_S50000_S50000x1

/-- A dense layer on the nodes, its weights given untransposed. -/
def layer (X : (⟨S50000x128, .f32⟩ : BufTy).Contents (Elt Ideal)) (W : (⟨S128x128, .f32⟩ : BufTy).Contents (Elt Ideal))
    (b : (⟨S128, .f32⟩ : BufTy).Contents (Elt Ideal)) : (⟨S50000x128, .f32⟩ : BufTy).Contents (Elt Ideal) :=
  GatedConv.dense 50000 X (transpose S128x128 [1, 0] W transposes_S128x128_S128x128_1_0) b

/-- The whole forward pass. -/
def network (X : (⟨S50000x128, .f32⟩ : BufTy).Contents (Elt Ideal)) (e : (⟨S2x800000, .i32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (W3 : (⟨S128x128, .f32⟩ : BufTy).Contents (Elt Ideal)) (b3 : (⟨S128, .f32⟩ : BufTy).Contents (Elt Ideal))
    (W4 : (⟨S128x128, .f32⟩ : BufTy).Contents (Elt Ideal)) (b4 : (⟨S128, .f32⟩ : BufTy).Contents (Elt Ideal))
    (Wr : (⟨S128x128, .f32⟩ : BufTy).Contents (Elt Ideal)) (br : (⟨S128, .f32⟩ : BufTy).Contents (Elt Ideal)) :
    (⟨S50000x128, .f32⟩ : BufTy).Contents (Elt Ideal) :=
  GatedConv.combine 50000
    (sumInto (dstRow e)
      (GatedConv.gate (rowsAt (layer X W3 b3) (srcRow e)) (rowsAt (layer X W4 b4) (dstRow e)) (rowsAt (layer X W2 b2) (srcRow e))))
    (countInto (dstRow e)) (layer X W1 b1) (layer X Wr br)

end Cert.KernelIdeal.Layers

end
-- ==== Proof.KernelValue.lean ====
/-
  The kernel program's result is the network of its arguments.

  The contents of the buffers at the six segment boundaries are followed from the launch memory to the result:
  the first stretch transposes the five weight matrices and cuts the two index rows out of the edge array; the first
  pipeline leaves the five dense layers of the features (each result array is the layer of the whole array); the
  second stretch gathers three of them at the edges' ends; the second pipeline leaves their gate; the third stretch
  sums the messages and counts the edges into their target rows; the third pipeline leaves the combination. A buffer
  that a segment does not write is read back through it unchanged.
-/
import proofs.«113870_j86285892976710_1_alg».proof.Proof.KernelRun
import proofs.«113870_j86285892976710_1_alg».proof.Proof.DenseRegion
import proofs.«113870_j86285892976710_1_alg».proof.Proof.GateRegion
import proofs.«113870_j86285892976710_1_alg».proof.Proof.CombineRegion
import proofs.«113870_j86285892976710_1_alg».proof.Proof.Network
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Entering the first pipeline: the arguments as launched, the weights transposed, the two index rows -/

theorem V1_main_arg0 (c : Dev nD) : V1 m ρ c main_arg0 = m ((c : Thread nD τ).loc main_arg0) := by
  show StableHlo.after hostOps0 (W0 m ρ c) (Proc.devRef .tc main_arg0) = _
  after_results
theorem V1_main_arg3 (c : Dev nD) : V1 m ρ c main_arg3 = m ((c : Thread nD τ).loc main_arg3) := by
  show StableHlo.after hostOps0 (W0 m ρ c) (Proc.devRef .tc main_arg3) = _
  after_results
theorem V1_main_arg5 (c : Dev nD) : V1 m ρ c main_arg5 = m ((c : Thread nD τ).loc main_arg5) := by
  show StableHlo.after hostOps0 (W0 m ρ c) (Proc.devRef .tc main_arg5) = _
  after_results
theorem V1_main_arg7 (c : Dev nD) : V1 m ρ c main_arg7 = m ((c : Thread nD τ).loc main_arg7) := by
  show StableHlo.after hostOps0 (W0 m ρ c) (Proc.devRef .tc main_arg7) = _
  after_results
theorem V1_main_arg9 (c : Dev nD) : V1 m ρ c main_arg9 = m ((c : Thread nD τ).loc main_arg9) := by
  show StableHlo.after hostOps0 (W0 m ρ c) (Proc.devRef .tc main_arg9) = _
  after_results
theorem V1_main_arg11 (c : Dev nD) : V1 m ρ c main_arg11 = m ((c : Thread nD τ).loc main_arg11) := by
  show StableHlo.after hostOps0 (W0 m ρ c) (Proc.devRef .tc main_arg11) = _
  after_results
theorem V1_main_v4 (c : Dev nD) :
    V1 m ρ c main_v4 = transpose S128x128 [1, 0] (m ((c : Thread nD τ).loc main_arg2)) Facts₀.transposes_S128x128_S128x128_1_0 := by
  show StableHlo.after hostOps0 (W0 m ρ c) (Proc.devRef .tc main_v4) = _
  after_results
theorem V1_main_v5 (c : Dev nD) :
    V1 m ρ c main_v5 = transpose S128x128 [1, 0] (m ((c : Thread nD τ).loc main_arg4)) Facts₀.transposes_S128x128_S128x128_1_0 := by
  show StableHlo.after hostOps0 (W0 m ρ c) (Proc.devRef .tc main_v5) = _
  after_results
theorem V1_main_v6 (c : Dev nD) :
    V1 m ρ c main_v6 = transpose S128x128 [1, 0] (m ((c : Thread nD τ).loc main_arg6)) Facts₀.transposes_S128x128_S128x128_1_0 := by
  show StableHlo.after hostOps0 (W0 m ρ c) (Proc.devRef .tc main_v6) = _
  after_results
theorem V1_main_v7 (c : Dev nD) :
    V1 m ρ c main_v7 = transpose S128x128 [1, 0] (m ((c : Thread nD τ).loc main_arg8)) Facts₀.transposes_S128x128_S128x128_1_0 := by
  show StableHlo.after hostOps0 (W0 m ρ c) (Proc.devRef .tc main_v7) = _
  after_results
theorem V1_main_v8 (c : Dev nD) :
    V1 m ρ c main_v8 = transpose S128x128 [1, 0] (m ((c : Thread nD τ).loc main_arg10)) Facts₀.transposes_S128x128_S128x128_1_0 := by
  show StableHlo.after hostOps0 (W0 m ρ c) (Proc.devRef .tc main_v8) = _
  after_results

theorem W1_src (c : Dev nD) : W1 m ρ c (Proc.devRef .tc main_v1) = srcRow (m ((c : Thread nD τ).loc main_arg1)) := by
  show StableHlo.after hostOps0 (W0 m ρ c) (Proc.devRef .tc main_v1) = _
  after_results
  rfl
theorem W1_dst (c : Dev nD) : W1 m ρ c (Proc.devRef .tc main_v3) = dstRow (m ((c : Thread nD τ).loc main_arg1)) := by
  show StableHlo.after hostOps0 (W0 m ρ c) (Proc.devRef .tc main_v3) = _
  after_results
  rfl

/-! ## Leaving the first pipeline: the five dense layers; the index rows untouched -/

theorem W2_layer0 (c : Dev nD) :
    W2 m ρ c (Proc.devRef .tc main_v9_0) = layer (m ((c : Thread nD τ).loc main_arg0)) (m ((c : Thread nD τ).loc main_arg2)) (m ((c : Thread nD τ).loc main_arg3)) :=
  (W2_arr m ρ c 11).trans ((dense_final_11 (V1 m ρ) c).trans (by rw [V1_main_arg0, V1_main_v4, V1_main_arg3]; rfl))
theorem W2_layer1 (c : Dev nD) :
    W2 m ρ c (Proc.devRef .tc main_v9_1) = layer (m ((c : Thread nD τ).loc main_arg0)) (m ((c : Thread nD τ).loc main_arg4)) (m ((c : Thread nD τ).loc main_arg5)) :=
  (W2_arr m ρ c 12).trans ((dense_final_12 (V1 m ρ) c).trans (by rw [V1_main_arg0, V1_main_v5, V1_main_arg5]; rfl))
theorem W2_layer2 (c : Dev nD) :
    W2 m ρ c (Proc.devRef .tc main_v9_2) = layer (m ((c : Thread nD τ).loc main_arg0)) (m ((c : Thread nD τ).loc main_arg6)) (m ((c : Thread nD τ).loc main_arg7)) :=
  (W2_arr m ρ c 13).trans ((dense_final_13 (V1 m ρ) c).trans (by rw [V1_main_arg0, V1_main_v6, V1_main_arg7]; rfl))
theorem W2_layer3 (c : Dev nD) :
    W2 m ρ c (Proc.devRef .tc main_v9_3) = layer (m ((c : Thread nD τ).loc main_arg0)) (m ((c : Thread nD τ).loc main_arg8)) (m ((c : Thread nD τ).loc main_arg9)) :=
  (W2_arr m ρ c 14).trans ((dense_final_14 (V1 m ρ) c).trans (by rw [V1_main_arg0, V1_main_v7, V1_main_arg9]; rfl))
theorem W2_layer4 (c : Dev nD) :
    W2 m ρ c (Proc.devRef .tc main_v9_4) = layer (m ((c : Thread nD τ).loc main_arg0)) (m ((c : Thread nD τ).loc main_arg10)) (m ((c : Thread nD τ).loc main_arg11)) :=
  (W2_arr m ρ c 15).trans ((dense_final_15 (V1 m ρ) c).trans (by rw [V1_main_arg0, V1_main_v8, V1_main_arg11]; rfl))

theorem W2_src (c : Dev nD) : W2 m ρ c (Proc.devRef .tc main_v1) = srcRow (m ((c : Thread nD τ).loc main_arg1)) :=
  (W2_of_ne m ρ c main_v1 (by decide)).trans (W1_src m ρ c)
theorem W2_dst (c : Dev nD) : W2 m ρ c (Proc.devRef .tc main_v3) = dstRow (m ((c : Thread nD τ).loc main_arg1)) :=
  (W2_of_ne m ρ c main_v3 (by decide)).trans (W1_dst m ρ c)

/-! ## Entering the second pipeline: three layers gathered at the edges' ends -/

set_option maxHeartbeats 4000000 in
theorem V3_v16 (c : Dev nD) : V3 m ρ c main_v16 = rowsAt (layer (m ((c : Thread nD τ).loc main_arg0)) (m ((c : Thread nD τ).loc main_arg6)) (m ((c : Thread nD τ).loc main_arg7))) (srcRow (m ((c : Thread nD τ).loc main_arg1))) := by
  show StableHlo.after hostOps1 (W2 m ρ c) (Proc.devRef .tc main_v16) = _
  after_results_simp
  rw [W2_layer2, W2_src]
  rfl
set_option maxHeartbeats 4000000 in
theorem V3_v23 (c : Dev nD) : V3 m ρ c main_v23 = rowsAt (layer (m ((c : Thread nD τ).loc main_arg0)) (m ((c : Thread nD τ).loc main_arg8)) (m ((c : Thread nD τ).loc main_arg9))) (dstRow (m ((c : Thread nD τ).loc main_arg1))) := by
  show StableHlo.after hostOps1 (W2 m ρ c) (Proc.devRef .tc main_v23) = _
  after_results_simp
  rw [W2_layer3, W2_dst]
  rfl
set_option maxHeartbeats 4000000 in
theorem V3_v30 (c : Dev nD) : V3 m ρ c main_v30 = rowsAt (layer (m ((c : Thread nD τ).loc main_arg0)) (m ((c : Thread nD τ).loc main_arg4)) (m ((c : Thread nD τ).loc main_arg5))) (srcRow (m ((c : Thread nD τ).loc main_arg1))) := by
  show StableHlo.after hostOps1 (W2 m ρ c) (Proc.devRef .tc main_v30) = _
  after_results_simp
  rw [W2_layer1, W2_src]
  rfl
set_option maxHeartbeats 4000000 in
theorem W3_dst (c : Dev nD) : W3 m ρ c (Proc.devRef .tc main_v3) = dstRow (m ((c : Thread nD τ).loc main_arg1)) := by
  show StableHlo.after hostOps1 (W2 m ρ c) (Proc.devRef .tc main_v3) = _
  after_results_simp
  exact W2_dst m ρ c
set_option maxHeartbeats 4000000 in
theorem W3_layer0 (c : Dev nD) : W3 m ρ c (Proc.devRef .tc main_v9_0) = layer (m ((c : Thread nD τ).loc main_arg0)) (m ((c : Thread nD τ).loc main_arg2)) (m ((c : Thread nD τ).loc main_arg3)) := by
  show StableHlo.after hostOps1 (W2 m ρ c) (Proc.devRef .tc main_v9_0) = _
  after_results_simp
  exact W2_layer0 m ρ c
set_option maxHeartbeats 4000000 in
theorem W3_layer4 (c : Dev nD) : W3 m ρ c (Proc.devRef .tc main_v9_4) = layer (m ((c : Thread nD τ).loc main_arg0)) (m ((c : Thread nD τ).loc main_arg10)) (m ((c : Thread nD τ).loc main_arg11)) := by
  show StableHlo.after hostOps1 (W2 m ρ c) (Proc.devRef .tc main_v9_4) = _
  after_results_simp
  exact W2_layer4 m ρ c

/-! ## Leaving the second pipeline: the gated messages -/

theorem W4_msg (c : Dev nD) : W4 m ρ c (Proc.devRef .tc main_v31)
    = GatedConv.gate (rowsAt (layer (m ((c : Thread nD τ).loc main_arg0)) (m ((c : Thread nD τ).loc main_arg6)) (m ((c : Thread nD τ).loc main_arg7))) (srcRow (m ((c : Thread nD τ).loc main_arg1)))) (rowsAt (layer (m ((c : Thread nD τ).loc main_arg0)) (m ((c : Thread nD τ).loc main_arg8)) (m ((c : Thread nD τ).loc main_arg9))) (dstRow (m ((c : Thread nD τ).loc main_arg1))))
        (rowsAt (layer (m ((c : Thread nD τ).loc main_arg0)) (m ((c : Thread nD τ).loc main_arg4)) (m ((c : Thread nD τ).loc main_arg5))) (srcRow (m ((c : Thread nD τ).loc main_arg1)))) :=
  (W4_arr m ρ c 3).trans ((gate_final (V3 m ρ) c).trans (by rw [V3_v16, V3_v23, V3_v30]))
theorem W4_dst (c : Dev nD) : W4 m ρ c (Proc.devRef .tc main_v3) = dstRow (m ((c : Thread nD τ).loc main_arg1)) :=
  (W4_of_ne m ρ c main_v3 (by decide)).trans (W3_dst m ρ c)
theorem W4_layer0 (c : Dev nD) : W4 m ρ c (Proc.devRef .tc main_v9_0) = layer (m ((c : Thread nD τ).loc main_arg0)) (m ((c : Thread nD τ).loc main_arg2)) (m ((c : Thread nD τ).loc main_arg3)) :=
  (W4_of_ne m ρ c main_v9_0 (by decide)).trans (W3_layer0 m ρ c)
theorem W4_layer4 (c : Dev nD) : W4 m ρ c (Proc.devRef .tc main_v9_4) = layer (m ((c : Thread nD τ).loc main_arg0)) (m ((c : Thread nD τ).loc main_arg10)) (m ((c : Thread nD τ).loc main_arg11)) :=
  (W4_of_ne m ρ c main_v9_4 (by decide)).trans (W3_layer4 m ρ c)

/-! ## Entering the third pipeline: the messages summed and the edges counted into their target rows -/

set_option maxHeartbeats 4000000 in
theorem V5_v34 (c : Dev nD) : V5 m ρ c main_v34
    = sumInto (dstRow (m ((c : Thread nD τ).loc main_arg1))) (GatedConv.gate (rowsAt (layer (m ((c : Thread nD τ).loc main_arg0)) (m ((c : Thread nD τ).loc main_arg6)) (m ((c : Thread nD τ).loc main_arg7))) (srcRow (m ((c : Thread nD τ).loc main_arg1)))) (rowsAt (layer (m ((c : Thread nD τ).loc main_arg0)) (m ((c : Thread nD τ).loc main_arg8)) (m ((c : Thread nD τ).loc main_arg9))) (dstRow (m ((c : Thread nD τ).loc main_arg1))))
        (rowsAt (layer (m ((c : Thread nD τ).loc main_arg0)) (m ((c : Thread nD τ).loc main_arg4)) (m ((c : Thread nD τ).loc main_arg5))) (srcRow (m ((c : Thread nD τ).loc main_arg1))))) := by
  show StableHlo.after hostOps2 (W4 m ρ c) (Proc.devRef .tc main_v34) = _
  after_results_simp
  rw [W4_msg, W4_dst]
  rfl
set_option maxHeartbeats 4000000 in
theorem V5_v39 (c : Dev nD) : V5 m ρ c main_v39 = countInto (dstRow (m ((c : Thread nD τ).loc main_arg1))) := by
  show StableHlo.after hostOps2 (W4 m ρ c) (Proc.devRef .tc main_v39) = _
  after_results_simp
  rw [W4_dst]
  rfl
set_option maxHeartbeats 4000000 in
theorem V5_layer0 (c : Dev nD) : V5 m ρ c main_v9_0 = layer (m ((c : Thread nD τ).loc main_arg0)) (m ((c : Thread nD τ).loc main_arg2)) (m ((c : Thread nD τ).loc main_arg3)) := by
  show StableHlo.after hostOps2 (W4 m ρ c) (Proc.devRef .tc main_v9_0) = _
  after_results_simp
  exact W4_layer0 m ρ c
set_option maxHeartbeats 4000000 in
theorem V5_layer4 (c : Dev nD) : V5 m ρ c main_v9_4 = layer (m ((c : Thread nD τ).loc main_arg0)) (m ((c : Thread nD τ).loc main_arg10)) (m ((c : Thread nD τ).loc main_arg11)) := by
  show StableHlo.after hostOps2 (W4 m ρ c) (Proc.devRef .tc main_v9_4) = _
  after_results_simp
  exact W4_layer4 m ρ c

/-! ## Leaving the third pipeline: the result -/

/-- The last boundary's contents at the result buffer are the network of the launch memory's arguments. -/
theorem W6_result (c : Dev nD) : W6 m ρ c (Proc.devRef .tc main_v40)
    = network (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11)) :=
  (W6_arr m ρ c 4).trans ((combine_final (V5 m ρ) c).trans (by rw [V5_v34, V5_v39, V5_layer0, V5_layer4]; rfl))

/-- The kernel program's run: the result buffer ends at the network of the arguments, every argument as launched. -/
theorem kernel_run : θ_run defs (onTc (τ := τ) (main (F := Ideal))) ⟨m, fun _ => 0, ρ⟩ (fun r => ∀ c : Dev nD,
      r.2.mem ((c.tc : Thread nD τ).loc main_v40)
        = network (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
            (m ((c : Thread nD τ).loc main_arg8)) (m ((c : Thread nD τ).loc main_arg9))
            (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W6_result m ρ c), (h c).2⟩) (run_result m ρ)

end Cert.KernelIdeal.Layers

end
-- ==== Proof.ReferenceValue.lean ====
/-
  The reference program's result is the network of its arguments.

  The reference writes the same forward pass with whole-array operations only. Its five dense layers are a
  `dot_general` with the transposed weights plus the bias broadcast to every row; its gate spells the logistic function
  as one divided by one plus the exponential of the negated sum; its combination divides by the counts' maximum with
  one broadcast along the columns and then adds the residual layer's product and its bias one after the other. Each
  is the corresponding layer of `GatedLayers`; the gathers, the scatter-adds and the index arithmetic are the very
  operations the network is written with.
-/
import proofs.«113870_j86285892976710_1_alg».proof.Proof.Gen.ReferenceIdeal.Read
import proofs.«113870_j86285892976710_1_alg».proof.Proof.Network

set_option maxRecDepth 16384

noncomputable section

namespace Cert.ReferenceIdeal.Layers

open Cert.ReferenceIdeal Cert.ReferenceIdeal.Read Cert.KernelIdeal.Layers
open Idealize.ShloMosaic Idealize.ShloMosaic.TcCoe

/-- A node layer of the reference is the dense layer with the transposed weights. -/
theorem layer1 (x0 : (⟨S50000x128, .f32⟩ : BufTy).Contents (Elt Ideal)) (x2 : (⟨S128x128, .f32⟩ : BufTy).Contents (Elt Ideal)) (x3 : (⟨S128, .f32⟩ : BufTy).Contents (Elt Ideal)) : val_main_v8 (F := Ideal) x0 x2 x3 = layer x0 x2 x3 :=
  GatedConv.dense_host 50000 _ _ _ _ _ Cert.KernelIdeal.Facts₀.shapeCasts_S128_S1x128
theorem layer2 (x0 : (⟨S50000x128, .f32⟩ : BufTy).Contents (Elt Ideal)) (x4 : (⟨S128x128, .f32⟩ : BufTy).Contents (Elt Ideal)) (x5 : (⟨S128, .f32⟩ : BufTy).Contents (Elt Ideal)) : val_main_v13 (F := Ideal) x0 x4 x5 = layer x0 x4 x5 :=
  GatedConv.dense_host 50000 _ _ _ _ _ Cert.KernelIdeal.Facts₀.shapeCasts_S128_S1x128
theorem layer3 (x0 : (⟨S50000x128, .f32⟩ : BufTy).Contents (Elt Ideal)) (x6 : (⟨S128x128, .f32⟩ : BufTy).Contents (Elt Ideal)) (x7 : (⟨S128, .f32⟩ : BufTy).Contents (Elt Ideal)) : val_main_v18 (F := Ideal) x0 x6 x7 = layer x0 x6 x7 :=
  GatedConv.dense_host 50000 _ _ _ _ _ Cert.KernelIdeal.Facts₀.shapeCasts_S128_S1x128
theorem layer4 (x0 : (⟨S50000x128, .f32⟩ : BufTy).Contents (Elt Ideal)) (x8 : (⟨S128x128, .f32⟩ : BufTy).Contents (Elt Ideal)) (x9 : (⟨S128, .f32⟩ : BufTy).Contents (Elt Ideal)) : val_main_v30 (F := Ideal) x0 x8 x9 = layer x0 x8 x9 :=
  GatedConv.dense_host 50000 _ _ _ _ _ Cert.KernelIdeal.Facts₀.shapeCasts_S128_S1x128
theorem layerRes (x0 : (⟨S50000x128, .f32⟩ : BufTy).Contents (Elt Ideal)) (x10 : (⟨S128x128, .f32⟩ : BufTy).Contents (Elt Ideal)) (x11 : (⟨S128, .f32⟩ : BufTy).Contents (Elt Ideal)) :
    @Eq (FVec Ideal S50000x128 .f32) (addf (val_main_v66 (F := Ideal) x0 x10) (val_main_v69 (F := Ideal) x11)) (layer x0 x10 x11) :=
  GatedConv.dense_host 50000 _ _ _ _ _ Cert.KernelIdeal.Facts₀.shapeCasts_S128_S1x128

/-- The reference's messages are the gate of the three gathered layers. -/
theorem messages (x0 : (⟨S50000x128, .f32⟩ : BufTy).Contents (Elt Ideal)) (x1 : (⟨S2x800000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v52 (F := Ideal) x0 x1 x4 x5 x6 x7 x8 x9
      = GatedConv.gate (rowsAt (layer x0 x6 x7) (srcRow x1)) (rowsAt (layer x0 x8 x9) (dstRow x1)) (rowsAt (layer x0 x4 x5) (srcRow x1)) := by
  refine (GatedConv.gate_host (val_main_v25 (F := Ideal) x0 x1 x6 x7) (val_main_v37 (F := Ideal) x0 x1 x8 x9)
    (val_main_v51 (F := Ideal) x0 x1 x4 x5) (val_main_v43 (F := Ideal)) (fun e => Ideal.ofBits_one_f32)).trans ?_
  unfold val_main_v25 val_main_v37 val_main_v51
  rw [layer3, layer4, layer2]
  rfl

/-- The reference's result is the network of its arguments. -/
theorem reference_value (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v70 (F := Ideal) x0 x1 x2 x3 x4 x5 x6 x7 x8 x9 x10 x11 = network x0 x1 x2 x3 x4 x5 x6 x7 x8 x9 x10 x11 := by
  refine (GatedConv.combine_host 50000 (by decide) (val_main_v55 (F := Ideal) x0 x1 x4 x5 x6 x7 x8 x9) (val_main_v8 (F := Ideal) x0 x2 x3)
    (val_main_v66 (F := Ideal) x0 x10) (val_main_v60 (F := Ideal) x1) (val_main_call0_v1 (F := Ideal)) (val_main_v69 (F := Ideal) x11)
    (fun e => Ideal.ofBits_one_f32) _ _ Cert.KernelIdeal.Facts₀.shapeCasts_S50000_S50000x1).trans ?_
  rw [layerRes, layer1]
  unfold val_main_v55
  rw [messages]
  rfl

end Cert.ReferenceIdeal.Layers

end
-- ==== Proof.lean ====
/-
  A residual gated graph convolution: the kernel's three pipelines against the whole-array reference, on the
  extended reals.

  Both programs compute, for node features X, five dense layers H_k = X * transpose W_k + b_k, gather H_3, H_4 and H_2
  at the edges' ends, gate them into one message row per edge, sigma (H_3[src] + H_4[dst]) * H_2[src], sum the
  messages and count the edges into their target rows, and return (S + H_1) / max (n, 1) + H_res.

  The kernel tiles the rows: 25 blocks of 2000 node rows for the dense layers and for the combination, 125 blocks of
  6400 edge rows for the gate. Each of these layers reads, for an entry, only that entry's row (and, for the dense
  layers, the whole weights), so a block of the result is the block of the layer of the whole arrays, and the blocks
  tile the rows: the three pipelines leave exactly the layers of the whole arrays (DenseRegion, GateRegion,
  CombineRegion). Followed through the program's six segments this makes the kernel's result the function `network`
  of its arguments (KernelValue). The reference spells the same layers with whole-array operations — a `dot_general`
  plus a broadcast bias, the logistic function as 1 / (1 + exp (-x)), the maximum's operands the other way round, the
  residual's product and bias added one after the other — and is the same `network` (ReferenceValue); the only laws
  used are that a matrix product is a sum over the contraction index however it is tiled, that max is commutative and
  that addition of extended reals is associative. None needs a finite value, so the precondition is never opened.
  The gathers, the scatter-adds and the index arithmetic are the same operations in both programs and are never
  unfolded. The ideal pass rewrote nothing, so `preserves` is the trivial statement.
-/
import proofs.«113870_j86285892976710_1_alg».proof.Defs
import proofs.«113870_j86285892976710_1_alg».proof.Proof.Gen.Kernel
import proofs.«113870_j86285892976710_1_alg».proof.Proof.Gen.Kernel.Frame
import proofs.«113870_j86285892976710_1_alg».proof.Proof.Gen.KernelIdeal
import proofs.«113870_j86285892976710_1_alg».proof.Proof.Gen.KernelIdeal.Frame
import proofs.«113870_j86285892976710_1_alg».proof.Proof.Gen.ReferenceIdeal
import proofs.«113870_j86285892976710_1_alg».proof.Proof.Gen.Pre_finite_inputs
import proofs.«113870_j86285892976710_1_alg».proof.Proof.Gen.ReferenceIdeal.Run
import proofs.«113870_j86285892976710_1_alg».proof.Proof.Gen.ReferenceIdeal.Read
import proofs.«113870_j86285892976710_1_alg».proof.Proof.KernelValue
import proofs.«113870_j86285892976710_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the twelve arguments both programs end with the network of those arguments in their
    result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Layers.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    Cert.KernelIdeal.Layers.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.ReferenceIdeal.Layers.reference_value]
  obtain ⟨h0, h1, h2, h3, h4, h5, h6, h7, h8, h9, h10, h11⟩ := hagree c
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
